-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S2x6400000 : Shape := ⟨2, ![2, 6400000]⟩
abbrev S200000 : Shape := ⟨1, ![200000]⟩
abbrev S16x32 : Shape := ⟨2, ![16, 32]⟩
abbrev S32 : Shape := ⟨1, ![32]⟩
abbrev S32x1 : Shape := ⟨2, ![32, 1]⟩
abbrev S1 : Shape := ⟨1, ![1]⟩
abbrev S32x32 : Shape := ⟨2, ![32, 32]⟩
abbrev S32x64 : Shape := ⟨2, ![32, 64]⟩
abbrev S64 : Shape := ⟨1, ![64]⟩
abbrev S64x32 : Shape := ⟨2, ![64, 32]⟩
abbrev S32x3 : Shape := ⟨2, ![32, 3]⟩
abbrev S3 : Shape := ⟨1, ![3]⟩
abbrev S_ : Shape := ⟨0, ![]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg16 : FVec F S3 .f32) (main_v63 : IVec S_ 1) (main_v67 : IVec S_ 1) : IVec S_ 1 :=
  let main_v68 : IVec S_ 1 := andi main_v63 main_v67
  let main_v69 : FVec F S3 .f32 := Host.absf main_arg16
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  main_v73

def fn_part3 {F : FTy → Type} [FloatOps F] (main_arg13 : FVec F S64x32 .f32) (main_arg14 : FVec F S32 .f32) (main_arg15 : FVec F S32x3 .f32) (main_arg16 : FVec F S3 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x32 .f32 := Host.absf main_arg13
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x3 .f32 := Host.absf main_arg15
  let main_cst_24 : FVec F S_ .f32 := constant S_ .f32 0x7F800000#32
  let main_v65 : FVec F S32x3 .f32 := broadcastInDim S32x3 ![] bcast_S_S32x3 main_cst_24
  let main_v66 : IVec S32x3 1 := cmpf .olt main_v64 main_v65
  let main_c_25 : IVec S_ 1 := constantI S_ 1 1#1
  let main_v67 : IVec S_ 1 := (fun x v => Host.reduce IntOp.andi x v reducesTo_S32x3_S_d0_1 h_S_) main_v66 main_c_25
  fn_part4 (F := F) main_arg16 main_v63 main_v67

def fn_part2 {F : FTy → Type} [FloatOps F] (main_arg9 : FVec F S32x32 .f32) (main_arg10 : FVec F S32 .f32) (main_arg11 : FVec F S32x64 .f32) (main_arg12 : FVec F S64 .f32) (main_arg13 : FVec F S64x32 .f32) (main_arg14 : FVec F S32 .f32) (main_arg15 : FVec F S32x3 .f32) (main_arg16 : FVec F S3 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x64 .f32 := Host.absf main_arg11
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S1 .f32) (main_arg7 : FVec F S32x32 .f32) (main_arg8 : FVec F S32 .f32) (main_arg9 : FVec F S32x32 .f32) (main_arg10 : FVec F S32 .f32) (main_arg11 : FVec F S32x64 .f32) (main_arg12 : FVec F S64 .f32) (main_arg13 : FVec F S64x32 .f32) (main_arg14 : FVec F S32 .f32) (main_arg15 : FVec F S32x3 .f32) (main_arg16 : FVec F S3 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S200000x16 .f32) (main_arg1 : IVec S2x6400000 32) (main_arg2 : IVec S200000 32) (main_arg3 : FVec F S16x32 .f32) (main_arg4 : FVec F S32 .f32) (main_arg5 : FVec F S32x1 .f32) (main_arg6 : FVec F S1 .f32) (main_arg7 : FVec F S32x32 .f32) (main_arg8 : FVec F S32 .f32) (main_arg9 : FVec F S32x32 .f32) (main_arg10 : FVec F S32 .f32) (main_arg11 : FVec F S32x64 .f32) (main_arg12 : FVec F S64 .f32) (main_arg13 : FVec F S64x32 .f32) (main_arg14 : FVec F S32 .f32) (main_arg15 : FVec F S32x3 .f32) (main_arg16 : FVec F S3 .f32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S16x32 .f32 := Host.absf main_arg3
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg5
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S200000x16 : Shape := ⟨2, ![200000, 16]⟩
abbrev S2x6400000 : Shape := ⟨2, ![2, 6400000]⟩
abbrev S200000 : Shape := ⟨1, ![200000]⟩
abbrev S16x32 : Shape := ⟨2, ![16, 32]⟩
abbrev S32 : Shape := ⟨1, ![32]⟩
abbrev S32x1 : Shape := ⟨2, ![32, 1]⟩
abbrev S1 : Shape := ⟨1, ![1]⟩
abbrev S32x32 : Shape := ⟨2, ![32, 32]⟩
abbrev S32x64 : Shape := ⟨2, ![32, 64]⟩
abbrev S64 : Shape := ⟨1, ![64]⟩
abbrev S64x32 : Shape := ⟨2, ![64, 32]⟩
abbrev S32x3 : Shape := ⟨2, ![32, 3]⟩
abbrev S3 : Shape := ⟨1, ![3]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S1x32 : Shape := ⟨2, ![1, 32]⟩
abbrev S1x1 : Shape := ⟨2, ![1, 1]⟩
abbrev S200000x32 : Shape := ⟨2, ![200000, 32]⟩
abbrev S10000x16 : Shape := ⟨2, ![10000, 16]⟩
abbrev S10000x32 : Shape := ⟨2, ![10000, 32]⟩
abbrev S6600000x32 : Shape := ⟨2, ![6600000, 32]⟩
abbrev S10000x1 : Shape := ⟨2, ![10000, 1]⟩
abbrev S200000x1 : Shape := ⟨2, ![200000, 1]⟩
abbrev S64x1 : Shape := ⟨2, ![64, 1]⟩
abbrev S64x64 : Shape := ⟨2, ![64, 64]⟩
abbrev S1x64 : Shape := ⟨2, ![1, 64]⟩
abbrev S64x3 : Shape := ⟨2, ![64, 3]⟩
abbrev S1x3 : Shape := ⟨2, ![1, 3]⟩

abbrev nBuf : Space → Nat
  | .hbm => 158
  | .vmem => 19
  | .smem => 0
  | _ => 0

abbrev hbmTy0_0 (i : Nat) : BufTy := match i % 128 with
  | 0 => ⟨S200000x16, .f32⟩
  | 1 => ⟨S2x6400000, .i32⟩
  | 2 => ⟨S200000, .i32⟩
  | 3 => ⟨S16x32, .f32⟩
  | 4 => ⟨S32, .f32⟩
  | 5 => ⟨S32x1, .f32⟩
  | 6 => ⟨S1, .f32⟩
  | 7 => ⟨S32x32, .f32⟩
  | 8 => ⟨S32, .f32⟩
  | 9 => ⟨S32x32, .f32⟩
  | 10 => ⟨S32, .f32⟩
  | 11 => ⟨S32x64, .f32⟩
  | 12 => ⟨S64, .f32⟩
  | 13 => ⟨S64x32, .f32⟩
  | 14 => ⟨S32, .f32⟩
  | 15 => ⟨S32x3, .f32⟩
  | 16 => ⟨S3, .f32⟩
  | 17 => ⟨S1x6400000, .i32⟩
  | 18 => ⟨S6400000, .i32⟩
  | 19 => ⟨S1x6400000, .i32⟩
  | 20 => ⟨S6400000, .i32⟩
  | 21 => ⟨S200000, .i32⟩
  | 22 => ⟨S6600000, .i32⟩
  | 23 => ⟨S6600000, .i32⟩
  | 24 => ⟨S_, .f32⟩
  | 25 => ⟨S6600000, .f32⟩
  | 26 => ⟨S_, .f32⟩
  | 27 => ⟨S200000, .f32⟩
  | 28 => ⟨S6600000x1, .i32⟩
  | 29 => ⟨S200000, .f32⟩
  | 30 => ⟨S_, .f32⟩
  | 31 => ⟨S200000, .f32⟩
  | 32 => ⟨S200000, .f32⟩
  | 33 => ⟨S200000, .f32⟩
  | 34 => ⟨S_, .i32⟩
  | 35 => ⟨S6600000, .i32⟩
  | 36 => ⟨S6600000, .i1⟩
  | 37 => ⟨S_, .i32⟩
  | 38 => ⟨S6600000, .i32⟩
  | 39 => ⟨S6600000, .i32⟩
  | 40 => ⟨S6600000, .i32⟩
  | 41 => ⟨S6600000x1, .i32⟩
  | 42 => ⟨S6600000, .f32⟩
  | 43 => ⟨S_, .i32⟩
  | 44 => ⟨S6600000, .i32⟩
  | 45 => ⟨S6600000, .i1⟩
  | 46 => ⟨S_, .i32⟩
  | 47 => ⟨S6600000, .i32⟩
  | 48 => ⟨S6600000, .i32⟩
  | 49 => ⟨S6600000, .i32⟩
  | 50 => ⟨S6600000x1, .i32⟩
  | 51 => ⟨S6600000, .f32⟩
  | 52 => ⟨S6600000, .f32⟩
  | 53 => ⟨S1x32, .f32⟩
  | 54 => ⟨S1x1, .f32⟩
  | 55 => ⟨S1x32, .f32⟩
  | 56 => ⟨S1x32, .f32⟩
  | 57 => ⟨S200000x32, .f32⟩
  | 58 => ⟨S_, .i32⟩
  | 59 => ⟨S6600000, .i32⟩
  | 60 => ⟨S6600000, .i1⟩
  | 61 => ⟨S_, .i32⟩
  | 62 => ⟨S6600000, .i32⟩
  | 63 => ⟨S6600000, .i32⟩
  | 64 => ⟨S6600000, .i32⟩
  | 65 => ⟨S6600000x1, .i32⟩
  | 66 => ⟨S6600000x32, .f32⟩
  | 67 => ⟨S6600000x1, .f32⟩
  | 68 => ⟨S6600000x32, .f32⟩
  | 69 => ⟨S6600000x32, .f32⟩
  | 70 => ⟨S_, .f32⟩
  | 71 => ⟨S200000x32, .f32⟩
  | 72 => ⟨S6600000x1, .i32⟩
  | 73 => ⟨S200000x32, .f32⟩
  | 74 => ⟨S200000x32, .f32⟩
  | 75 => ⟨S_, .i32⟩
  | 76 => ⟨S6600000, .i32⟩
  | 77 => ⟨S6600000, .i1⟩
  | 78 => ⟨S_, .i32⟩
  | 79 => ⟨S6600000, .i32⟩
  | 80 => ⟨S6600000, .i32⟩
  | 81 => ⟨S6600000, .i32⟩
  | 82 => ⟨S6600000x1, .i32⟩
  | 83 => ⟨S6600000x32, .f32⟩
  | 84 => ⟨S6600000x1, .f32⟩
  | 85 => ⟨S6600000x32, .f32⟩
  | 86 => ⟨S6600000x32, .f32⟩
  | 87 => ⟨S_, .f32⟩
  | 88 => ⟨S200000x32, .f32⟩
  | 89 => ⟨S6600000x1, .i32⟩
  | 90 => ⟨S200000x32, .f32⟩
  | 91 => ⟨S200000x32, .f32⟩
  | 92 => ⟨S_, .i32⟩
  | 93 => ⟨S6600000, .i32⟩
  | 94 => ⟨S6600000, .i1⟩
  | 95 => ⟨S_, .i32⟩
  | 96 => ⟨S6600000, .i32⟩
  | 97 => ⟨S6600000, .i32⟩
  | 98 => ⟨S6600000, .i32⟩
  | 99 => ⟨S6600000x1, .i32⟩
  | 100 => ⟨S6600000x32, .f32⟩
  | 101 => ⟨S6600000x1, .f32⟩
  | 102 => ⟨S6600000x32, .f32⟩
  | 103 => ⟨S6600000x32, .f32⟩
  | 104 => ⟨S_, .f32⟩
  | 105 => ⟨S200000x32, .f32⟩
  | 106 => ⟨S6600000x1, .i32⟩
  | 107 => ⟨S200000x32, .f32⟩
  | 108 => ⟨S200000x32, .f32⟩
  | 109 => ⟨S200000x32, .f32⟩
  | 110 => ⟨S_, .f32⟩
  | 111 => ⟨S64x32, .f32⟩
  | 112 => ⟨S200000x1, .i32⟩
  | 113 => ⟨S64x32, .f32⟩
  | 114 => ⟨S_, .f32⟩
  | 115 => ⟨S200000, .f32⟩
  | 116 => ⟨S_, .f32⟩
  | 117 => ⟨S64, .f32⟩
  | 118 => ⟨S200000x1, .i32⟩
  | 119 => ⟨S64, .f32⟩
  | 120 => ⟨S_, .f32⟩
  | 121 => ⟨S64, .f32⟩
  | 122 => ⟨S64, .f32⟩
  | 123 => ⟨S64x1, .f32⟩
  | 124 => ⟨S64x32, .f32⟩
  | 125 => ⟨S64x32, .f32⟩
  | 126 => ⟨S64x64, .f32⟩
  | 127 => ⟨S1x64, .f32⟩
  | _ => ⟨S200000x16, .f32⟩

abbrev hbmTy0_1 (i : Nat) : BufTy := match i % 128 with
  | 0 => ⟨S64x64, .f32⟩
  | 1 => ⟨S64x64, .f32⟩
  | 2 => ⟨S_, .f32⟩
  | 3 => ⟨S64x64, .f32⟩
  | 4 => ⟨S64x64, .f32⟩
  | 5 => ⟨S64x32, .f32⟩
  | 6 => ⟨S1x32, .f32⟩
  | 7 => ⟨S64x32, .f32⟩
  | 8 => ⟨S64x32, .f32⟩
  | 9 => ⟨S_, .f32⟩
  | 10 => ⟨S64x32, .f32⟩
  | 11 => ⟨S64x32, .f32⟩
  | 12 => ⟨S64x3, .f32⟩
  | 13 => ⟨S1x3, .f32⟩
  | 14 => ⟨S64x3, .f32⟩
  | 15 => ⟨S64x3, .f32⟩
  | 16 => ⟨S_, .f32⟩
  | 17 => ⟨S64, .f32⟩
  | 18 => ⟨S_, .f32⟩
  | 19 => ⟨S64, .f32⟩
  | 20 => ⟨S64, .f32⟩
  | 21 => ⟨S64x1, .f32⟩
  | 22 => ⟨S64x3, .f32⟩
  | 23 => ⟨S64x3, .f32⟩
  | 24 => ⟨S64x3, .f32⟩
  | 25 => ⟨S_, .f32⟩
  | 26 => ⟨S64, .f32⟩
  | 27 => ⟨S64x1, .f32⟩
  | 28 => ⟨S64x3, .f32⟩
  | 29 => ⟨S64x3, .f32⟩
  | _ => ⟨S200000x16, .f32⟩

abbrev hbmTy (i : Nat) : BufTy := match i / 128 with
  | 0 => hbmTy0_0 i
  | 1 => hbmTy0_1 i
  | _ => ⟨S200000x16, .f32⟩

abbrev bufTy : (tb : Table) → Fin (tcTables nBuf tb) → BufTy
  | .hbm, ⟨i, _⟩ => hbmTy i
  | .local _ .vmem, ⟨0, _⟩ => ⟨S10000x16, .f32⟩
  | .local _ .vmem, ⟨1, _⟩ => ⟨S10000x16, .f32⟩
  | .local _ .vmem, ⟨2, _⟩ => ⟨S16x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x1, .f32⟩
  | .local _ .vmem, ⟨9, _⟩ => ⟨S1x1, .f32⟩
  | .local _ .vmem, ⟨10, _⟩ => ⟨S32x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S1x32, .f32⟩
  | .local _ .vmem, ⟨16, _⟩ => ⟨S32x32, .f32⟩
  | .local _ .vmem, ⟨17, _⟩ => ⟨S10000x32, .f32⟩
  | .local _ .vmem, ⟨18, _⟩ => ⟨S10000x32, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_8 : Ref sig .tc := ⟨.hbm, 75, rfl⟩
abbrev main_v48 : Ref sig .tc := ⟨.hbm, 76, rfl⟩
abbrev main_v49 : Ref sig .tc := ⟨.hbm, 77, rfl⟩
abbrev main_c_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_c_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_15 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_17 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_call0_cst : Ref sig .tc := ⟨.hbm, 130, rfl⟩
abbrev main_call0_v0 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_call1_cst : Ref sig .tc := ⟨.hbm, 137, rfl⟩
abbrev main_call1_v0 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_18 : Ref sig .tc := ⟨.hbm, 144, rfl⟩
abbrev main_v103 : Ref sig .tc := ⟨.hbm, 145, rfl⟩
abbrev main_cst_19 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_20 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  shapeCasts_S32_S1x32 : S32.ShapeCasts S1x32
  shapeCasts_S1_S1x1 : S1.ShapeCasts S1x1
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  broadcasts_S10000x1_S10000x32 : S10000x1.Broadcasts S10000x32
  inb_S32x32_S32x32_0_0 : ∀ a, (![0, 0] : Fin 2 → Nat) a + S32x32.size a ≤ S32x32.size a
  h_S32x32 : 0 < S32x32.numel
  bcast_S1x32_S200000x32_0_1 : S1x32.BroadcastsInDim S200000x32 (![0, 1] : Fin 2 → Fin S200000x32.rank)
  bcast_S_S64x32 : S_.BroadcastsInDim S64x32 (![] : Fin 0 → Fin S64x32.rank)
  bcast_S200000_S200000x1_0 : S200000.BroadcastsInDim S200000x1 (![0] : Fin 1 → Fin S200000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  reducesTo_S64x3_S64_d1 : S64x3.ReducesTo [1] S64
  h_S_ : 0 < S_.numel
  bcast_S64x1_S64x3_0_1 : S64x1.BroadcastsInDim S64x3 (![0, 1] : Fin 2 → Fin S64x3.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S10000x16_S16x32_S10000x32_1_0_0_1_n_n_wf : DotDims.WF S10000x16 S16x32 S10000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  dot_S10000x32_S32x1_S10000x1_1_0_0_1_n_n_wf : DotDims.WF S10000x32 S32x1 S10000x1 [1] [0] [0] [1] [] []
  dot_S10000x32_S32x32_S10000x32_1_0_0_1_n_n_wf : DotDims.WF S10000x32 S32x32 S10000x32 [1] [0] [0] [1] [] []
  scatter_S64x32_S200000x1_S200000x32_1_0_0_1_wf : ScatterDims.WF S64x32 S200000x1 S200000x32 [1] [0] [0] 1
  scatter_S64_S200000x1_S200000_n_0_0_1_wf : ScatterDims.WF S64 S200000x1 S200000 [] [0] [0] 1
  dot_S64x32_S32x64_S64x64_1_0_0_1_n_n_wf : DotDims.WF S64x32 S32x64 S64x64 [1] [0] [0] [1] [] []
  dot_S64x64_S64x32_S64x32_1_0_0_1_n_n_wf : DotDims.WF S64x64 S64x32 S64x32 [1] [0] [0] [1] [] []
  dot_S64x32_S32x3_S64x3_1_0_0_1_n_n_wf : DotDims.WF S64x32 S32x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S200000x16.size a
  hwx0_0 : ∀ i : grid0.Coords, EltTy.bits .f32 = 32 ∨ (Rect.block (s := S200000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S200000x32.size a
  hwx0_2 : ∀ i : grid0.Coords, EltTy.bits .f32 = 32 ∨ (Rect.block (s := S200000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S200000x32.size a
  hwx1_0 : ∀ i : grid1.Coords, EltTy.bits .f32 = 32 ∨ (Rect.block (s := S200000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S200000x32.size a
  hwx1_5 : ∀ i : grid1.Coords, EltTy.bits .f32 = 32 ∨ (Rect.block (s := S200000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S200000x32.size a
  hwx2_0 : ∀ i : grid2.Coords, EltTy.bits .f32 = 32 ∨ (Rect.block (s := S200000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S200000x32.size a
  hwx2_3 : ∀ i : grid2.Coords, EltTy.bits .f32 = 32 ∨ (Rect.block (s := S200000x32) S10000x32.size (cc2_transform_3 i) (hinb2_3 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def scatter_S64x32_S200000x1_S200000x32_1_0_0_1 : ScatterDims S64x32 S200000x1 S200000x32 where
  updateWindowDims := [1]
  insertedWindowDims := [0]
  scatterDimsToOperandDims := [0]
  indexVectorDim := 1
  wf := scatter_S64x32_S200000x1_S200000x32_1_0_0_1_wf
def scatter_S64_S200000x1_S200000_n_0_0_1 : ScatterDims S64 S200000x1 S200000 where
  updateWindowDims := []
  insertedWindowDims := [0]
  scatterDimsToOperandDims := [0]
  indexVectorDim := 1
  wf := scatter_S64_S200000x1_S200000_n_0_0_1_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x3_S64x3_1_0_0_1_n_n : DotDims S64x32 S32x3 S64x3 where
  lhsContracting := [1]
  rhsContracting := [0]
  lhsNonContracting := [0]
  rhsNonContracting := [1]
  lhsBatch := []
  rhsBatch := []
  wf := dot_S64x32_S32x3_S64x3_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x16 : Shape := ⟨2, ![200000, 16]⟩
abbrev S2x6400000 : Shape := ⟨2, ![2, 6400000]⟩
abbrev S200000 : Shape := ⟨1, ![200000]⟩
abbrev S16x32 : Shape := ⟨2, ![16, 32]⟩
abbrev S32 : Shape := ⟨1, ![32]⟩
abbrev S32x1 : Shape := ⟨2, ![32, 1]⟩
abbrev S1 : Shape := ⟨1, ![1]⟩
abbrev S32x32 : Shape := ⟨2, ![32, 32]⟩
abbrev S32x64 : Shape := ⟨2, ![32, 64]⟩
abbrev S64 : Shape := ⟨1, ![64]⟩
abbrev S64x32 : Shape := ⟨2, ![64, 32]⟩
abbrev S32x3 : Shape := ⟨2, ![32, 3]⟩
abbrev S3 : Shape := ⟨1, ![3]⟩
abbrev S1x6400000 : Shape := ⟨2, ![1, 6400000]⟩
abbrev S6400000 : Shape := ⟨1, ![6400000]⟩
abbrev S200000x32 : Shape := ⟨2, ![200000, 32]⟩
abbrev S6600000 : Shape := ⟨1, ![6600000]⟩
abbrev S_ : Shape := ⟨0, ![]⟩
abbrev S6600000x1 : Shape := ⟨2, ![6600000, 1]⟩
abbrev S6600000x32 : Shape := ⟨2, ![6600000, 32]⟩
abbrev S1x32 : Shape := ⟨2, ![1, 32]⟩
abbrev S200000x1 : Shape := ⟨2, ![200000, 1]⟩
abbrev S1x1 : Shape := ⟨2, ![1, 1]⟩
abbrev S64x1 : Shape := ⟨2, ![64, 1]⟩
abbrev S64x64 : Shape := ⟨2, ![64, 64]⟩
abbrev S1x64 : Shape := ⟨2, ![1, 64]⟩
abbrev S64x3 : Shape := ⟨2, ![64, 3]⟩
abbrev S1x3 : Shape := ⟨2, ![1, 3]⟩

abbrev nBuf : Space → Nat
  | .hbm => 245
  | .vmem => 0
  | .smem => 0
  | _ => 0

abbrev hbmTy0_0 (i : Nat) : BufTy := match i % 128 with
  | 0 => ⟨S200000x16, .f32⟩
  | 1 => ⟨S2x6400000, .i32⟩
  | 2 => ⟨S200000, .i32⟩
  | 3 => ⟨S16x32, .f32⟩
  | 4 => ⟨S32, .f32⟩
  | 5 => ⟨S32x1, .f32⟩
  | 6 => ⟨S1, .f32⟩
  | 7 => ⟨S32x32, .f32⟩
  | 8 => ⟨S32, .f32⟩
  | 9 => ⟨S32x32, .f32⟩
  | 10 => ⟨S32, .f32⟩
  | 11 => ⟨S32x64, .f32⟩
  | 12 => ⟨S64, .f32⟩
  | 13 => ⟨S64x32, .f32⟩
  | 14 => ⟨S32, .f32⟩
  | 15 => ⟨S32x3, .f32⟩
  | 16 => ⟨S3, .f32⟩
  | 17 => ⟨S1x6400000, .i32⟩
  | 18 => ⟨S6400000, .i32⟩
  | 19 => ⟨S1x6400000, .i32⟩
  | 20 => ⟨S6400000, .i32⟩
  | 21 => ⟨S200000x32, .f32⟩
  | 22 => ⟨S200000, .i32⟩
  | 23 => ⟨S6600000, .i32⟩
  | 24 => ⟨S6600000, .i32⟩
  | 25 => ⟨S_, .f32⟩
  | 26 => ⟨S6600000, .f32⟩
  | 27 => ⟨S_, .f32⟩
  | 28 => ⟨S200000, .f32⟩
  | 29 => ⟨S6600000x1, .i32⟩
  | 30 => ⟨S200000, .f32⟩
  | 31 => ⟨S_, .f32⟩
  | 32 => ⟨S200000, .f32⟩
  | 33 => ⟨S200000, .f32⟩
  | 34 => ⟨S200000, .f32⟩
  | 35 => ⟨S_, .i32⟩
  | 36 => ⟨S6600000, .i32⟩
  | 37 => ⟨S6600000, .i1⟩
  | 38 => ⟨S_, .i32⟩
  | 39 => ⟨S6600000, .i32⟩
  | 40 => ⟨S6600000, .i32⟩
  | 41 => ⟨S6600000, .i32⟩
  | 42 => ⟨S6600000x1, .i32⟩
  | 43 => ⟨S6600000, .f32⟩
  | 44 => ⟨S_, .i32⟩
  | 45 => ⟨S6600000, .i32⟩
  | 46 => ⟨S6600000, .i1⟩
  | 47 => ⟨S_, .i32⟩
  | 48 => ⟨S6600000, .i32⟩
  | 49 => ⟨S6600000, .i32⟩
  | 50 => ⟨S6600000, .i32⟩
  | 51 => ⟨S6600000x1, .i32⟩
  | 52 => ⟨S6600000, .f32⟩
  | 53 => ⟨S6600000, .f32⟩
  | 54 => ⟨S6600000x1, .f32⟩
  | 55 => ⟨S_, .i32⟩
  | 56 => ⟨S6600000, .i32⟩
  | 57 => ⟨S6600000, .i1⟩
  | 58 => ⟨S_, .i32⟩
  | 59 => ⟨S6600000, .i32⟩
  | 60 => ⟨S6600000, .i32⟩
  | 61 => ⟨S6600000, .i32⟩
  | 62 => ⟨S6600000x1, .i32⟩
  | 63 => ⟨S6600000x32, .f32⟩
  | 64 => ⟨S6600000x32, .f32⟩
  | 65 => ⟨S6600000x32, .f32⟩
  | 66 => ⟨S_, .f32⟩
  | 67 => ⟨S200000x32, .f32⟩
  | 68 => ⟨S6600000x1, .i32⟩
  | 69 => ⟨S200000x32, .f32⟩
  | 70 => ⟨S1x32, .f32⟩
  | 71 => ⟨S200000x32, .f32⟩
  | 72 => ⟨S200000x32, .f32⟩
  | 73 => ⟨S_, .f32⟩
  | 74 => ⟨S200000x32, .f32⟩
  | 75 => ⟨S200000x32, .f32⟩
  | 76 => ⟨S200000x1, .f32⟩
  | 77 => ⟨S1x1, .f32⟩
  | 78 => ⟨S200000x1, .f32⟩
  | 79 => ⟨S200000x1, .f32⟩
  | 80 => ⟨S200000x1, .f32⟩
  | 81 => ⟨S200000x1, .f32⟩
  | 82 => ⟨S_, .f32⟩
  | 83 => ⟨S200000x1, .f32⟩
  | 84 => ⟨S200000x1, .f32⟩
  | 85 => ⟨S_, .f32⟩
  | 86 => ⟨S200000x1, .f32⟩
  | 87 => ⟨S200000x1, .f32⟩
  | 88 => ⟨S200000x32, .f32⟩
  | 89 => ⟨S200000x32, .f32⟩
  | 90 => ⟨S200000x32, .f32⟩
  | 91 => ⟨S200000, .i32⟩
  | 92 => ⟨S6600000, .i32⟩
  | 93 => ⟨S6600000, .i32⟩
  | 94 => ⟨S_, .f32⟩
  | 95 => ⟨S6600000, .f32⟩
  | 96 => ⟨S_, .f32⟩
  | 97 => ⟨S200000, .f32⟩
  | 98 => ⟨S6600000x1, .i32⟩
  | 99 => ⟨S200000, .f32⟩
  | 100 => ⟨S_, .f32⟩
  | 101 => ⟨S200000, .f32⟩
  | 102 => ⟨S200000, .f32⟩
  | 103 => ⟨S200000, .f32⟩
  | 104 => ⟨S_, .i32⟩
  | 105 => ⟨S6600000, .i32⟩
  | 106 => ⟨S6600000, .i1⟩
  | 107 => ⟨S_, .i32⟩
  | 108 => ⟨S6600000, .i32⟩
  | 109 => ⟨S6600000, .i32⟩
  | 110 => ⟨S6600000, .i32⟩
  | 111 => ⟨S6600000x1, .i32⟩
  | 112 => ⟨S6600000, .f32⟩
  | 113 => ⟨S_, .i32⟩
  | 114 => ⟨S6600000, .i32⟩
  | 115 => ⟨S6600000, .i1⟩
  | 116 => ⟨S_, .i32⟩
  | 117 => ⟨S6600000, .i32⟩
  | 118 => ⟨S6600000, .i32⟩
  | 119 => ⟨S6600000, .i32⟩
  | 120 => ⟨S6600000x1, .i32⟩
  | 121 => ⟨S6600000, .f32⟩
  | 122 => ⟨S6600000, .f32⟩
  | 123 => ⟨S6600000x1, .f32⟩
  | 124 => ⟨S_, .i32⟩
  | 125 => ⟨S6600000, .i32⟩
  | 126 => ⟨S6600000, .i1⟩
  | 127 => ⟨S_, .i32⟩
  | _ => ⟨S200000x16, .f32⟩

abbrev hbmTy0_1 (i : Nat) : BufTy := match i % 128 with
  | 0 => ⟨S6600000, .i32⟩
  | 1 => ⟨S6600000, .i32⟩
  | 2 => ⟨S6600000, .i32⟩
  | 3 => ⟨S6600000x1, .i32⟩
  | 4 => ⟨S6600000x32, .f32⟩
  | 5 => ⟨S6600000x32, .f32⟩
  | 6 => ⟨S6600000x32, .f32⟩
  | 7 => ⟨S_, .f32⟩
  | 8 => ⟨S200000x32, .f32⟩
  | 9 => ⟨S6600000x1, .i32⟩
  | 10 => ⟨S200000x32, .f32⟩
  | 11 => ⟨S1x32, .f32⟩
  | 12 => ⟨S200000x32, .f32⟩
  | 13 => ⟨S200000x32, .f32⟩
  | 14 => ⟨S_, .f32⟩
  | 15 => ⟨S200000x32, .f32⟩
  | 16 => ⟨S200000x32, .f32⟩
  | 17 => ⟨S200000x32, .f32⟩
  | 18 => ⟨S200000, .i32⟩
  | 19 => ⟨S6600000, .i32⟩
  | 20 => ⟨S6600000, .i32⟩
  | 21 => ⟨S_, .f32⟩
  | 22 => ⟨S6600000, .f32⟩
  | 23 => ⟨S_, .f32⟩
  | 24 => ⟨S200000, .f32⟩
  | 25 => ⟨S6600000x1, .i32⟩
  | 26 => ⟨S200000, .f32⟩
  | 27 => ⟨S_, .f32⟩
  | 28 => ⟨S200000, .f32⟩
  | 29 => ⟨S200000, .f32⟩
  | 30 => ⟨S200000, .f32⟩
  | 31 => ⟨S_, .i32⟩
  | 32 => ⟨S6600000, .i32⟩
  | 33 => ⟨S6600000, .i1⟩
  | 34 => ⟨S_, .i32⟩
  | 35 => ⟨S6600000, .i32⟩
  | 36 => ⟨S6600000, .i32⟩
  | 37 => ⟨S6600000, .i32⟩
  | 38 => ⟨S6600000x1, .i32⟩
  | 39 => ⟨S6600000, .f32⟩
  | 40 => ⟨S_, .i32⟩
  | 41 => ⟨S6600000, .i32⟩
  | 42 => ⟨S6600000, .i1⟩
  | 43 => ⟨S_, .i32⟩
  | 44 => ⟨S6600000, .i32⟩
  | 45 => ⟨S6600000, .i32⟩
  | 46 => ⟨S6600000, .i32⟩
  | 47 => ⟨S6600000x1, .i32⟩
  | 48 => ⟨S6600000, .f32⟩
  | 49 => ⟨S6600000, .f32⟩
  | 50 => ⟨S6600000x1, .f32⟩
  | 51 => ⟨S_, .i32⟩
  | 52 => ⟨S6600000, .i32⟩
  | 53 => ⟨S6600000, .i1⟩
  | 54 => ⟨S_, .i32⟩
  | 55 => ⟨S6600000, .i32⟩
  | 56 => ⟨S6600000, .i32⟩
  | 57 => ⟨S6600000, .i32⟩
  | 58 => ⟨S6600000x1, .i32⟩
  | 59 => ⟨S6600000x32, .f32⟩
  | 60 => ⟨S6600000x32, .f32⟩
  | 61 => ⟨S6600000x32, .f32⟩
  | 62 => ⟨S_, .f32⟩
  | 63 => ⟨S200000x32, .f32⟩
  | 64 => ⟨S6600000x1, .i32⟩
  | 65 => ⟨S200000x32, .f32⟩
  | 66 => ⟨S1x32, .f32⟩
  | 67 => ⟨S200000x32, .f32⟩
  | 68 => ⟨S200000x32, .f32⟩
  | 69 => ⟨S_, .f32⟩
  | 70 => ⟨S64x32, .f32⟩
  | 71 => ⟨S200000x1, .i32⟩
  | 72 => ⟨S64x32, .f32⟩
  | 73 => ⟨S_, .f32⟩
  | 74 => ⟨S200000, .f32⟩
  | 75 => ⟨S_, .f32⟩
  | 76 => ⟨S64, .f32⟩
  | 77 => ⟨S200000x1, .i32⟩
  | 78 => ⟨S64, .f32⟩
  | 79 => ⟨S_, .f32⟩
  | 80 => ⟨S64, .f32⟩
  | 81 => ⟨S64, .f32⟩
  | 82 => ⟨S64x1, .f32⟩
  | 83 => ⟨S64x32, .f32⟩
  | 84 => ⟨S64x32, .f32⟩
  | 85 => ⟨S64x64, .f32⟩
  | 86 => ⟨S1x64, .f32⟩
  | 87 => ⟨S64x64, .f32⟩
  | 88 => ⟨S64x64, .f32⟩
  | 89 => ⟨S_, .f32⟩
  | 90 => ⟨S64x64, .f32⟩
  | 91 => ⟨S64x64, .f32⟩
  | 92 => ⟨S64x32, .f32⟩
  | 93 => ⟨S1x32, .f32⟩
  | 94 => ⟨S64x32, .f32⟩
  | 95 => ⟨S64x32, .f32⟩
  | 96 => ⟨S_, .f32⟩
  | 97 => ⟨S64x32, .f32⟩
  | 98 => ⟨S64x32, .f32⟩
  | 99 => ⟨S64x3, .f32⟩
  | 100 => ⟨S1x3, .f32⟩
  | 101 => ⟨S64x3, .f32⟩
  | 102 => ⟨S64x3, .f32⟩
  | 103 => ⟨S_, .f32⟩
  | 104 => ⟨S64, .f32⟩
  | 105 => ⟨S_, .f32⟩
  | 106 => ⟨S64, .f32⟩
  | 107 => ⟨S64, .f32⟩
  | 108 => ⟨S64x1, .f32⟩
  | 109 => ⟨S64x3, .f32⟩
  | 110 => ⟨S64x3, .f32⟩
  | 111 => ⟨S64x3, .f32⟩
  | 112 => ⟨S_, .f32⟩
  | 113 => ⟨S64, .f32⟩
  | 114 => ⟨S64x1, .f32⟩
  | 115 => ⟨S64x3, .f32⟩
  | 116 => ⟨S64x3, .f32⟩
  | _ => ⟨S200000x16, .f32⟩

abbrev hbmTy (i : Nat) : BufTy := match i / 128 with
  | 0 => hbmTy0_0 i
  | 1 => hbmTy0_1 i
  | _ => ⟨S200000x16, .f32⟩

abbrev bufTy : (tb : Table) → Fin (tcTables nBuf tb) → BufTy
  | .hbm, ⟨i, _⟩ => hbmTy i
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call0_cst : Ref sig .tc := ⟨.hbm, 73, rfl⟩
abbrev main_call0_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_10 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_13 : Ref sig .tc := ⟨.hbm, 104, rfl⟩
abbrev main_v70 : Ref sig .tc := ⟨.hbm, 105, rfl⟩
abbrev main_v71 : Ref sig .tc := ⟨.hbm, 106, rfl⟩
abbrev main_c_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_15 : Ref sig .tc := ⟨.hbm, 113, rfl⟩
abbrev main_v77 : Ref sig .tc := ⟨.hbm, 114, rfl⟩
abbrev main_v78 : Ref sig .tc := ⟨.hbm, 115, rfl⟩
abbrev main_c_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_17 : Ref sig .tc := ⟨.hbm, 124, rfl⟩
abbrev main_v86 : Ref sig .tc := ⟨.hbm, 125, rfl⟩
abbrev main_v87 : Ref sig .tc := ⟨.hbm, 126, rfl⟩
abbrev main_c_18 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_19 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call1_cst : Ref sig .tc := ⟨.hbm, 142, rfl⟩
abbrev main_call1_v0 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_20 : Ref sig .tc := ⟨.hbm, 149, rfl⟩
abbrev main_v106 : Ref sig .tc := ⟨.hbm, 150, rfl⟩
abbrev main_cst_21 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_22 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_c_23 : Ref sig .tc := ⟨.hbm, 159, rfl⟩
abbrev main_v113 : Ref sig .tc := ⟨.hbm, 160, rfl⟩
abbrev main_v114 : Ref sig .tc := ⟨.hbm, 161, rfl⟩
abbrev main_c_24 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_25 : Ref sig .tc := ⟨.hbm, 168, rfl⟩
abbrev main_v120 : Ref sig .tc := ⟨.hbm, 169, rfl⟩
abbrev main_v121 : Ref sig .tc := ⟨.hbm, 170, rfl⟩
abbrev main_c_26 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_c_27 : Ref sig .tc := ⟨.hbm, 179, rfl⟩
abbrev main_v129 : Ref sig .tc := ⟨.hbm, 180, rfl⟩
abbrev main_v130 : Ref sig .tc := ⟨.hbm, 181, rfl⟩
abbrev main_c_28 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_29 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_30 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_31 : Ref sig .tc := ⟨.hbm, 201, rfl⟩
abbrev main_v147 : Ref sig .tc := ⟨.hbm, 202, rfl⟩
abbrev main_cst_32 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_33 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_call2_cst : Ref sig .tc := ⟨.hbm, 217, rfl⟩
abbrev main_call2_v0 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_call3_cst : Ref sig .tc := ⟨.hbm, 224, rfl⟩
abbrev main_call3_v0 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_cst_34 : Ref sig .tc := ⟨.hbm, 231, rfl⟩
abbrev main_v170 : Ref sig .tc := ⟨.hbm, 232, rfl⟩
abbrev main_cst_35 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_cst_36 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  bcast_S200000x1_S200000x32_0_1 : S200000x1.BroadcastsInDim S200000x32 (![0, 1] : Fin 2 → Fin S200000x32.rank)
  bcast_S_S64x32 : S_.BroadcastsInDim S64x32 (![] : Fin 0 → Fin S64x32.rank)
  bcast_S200000_S200000x1_0 : S200000.BroadcastsInDim S200000x1 (![0] : Fin 1 → Fin S200000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1x32_S64x32_0_1 : S1x32.BroadcastsInDim S64x32 (![0, 1] : Fin 2 → Fin S64x32.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  reducesTo_S64x3_S64_d1 : S64x3.ReducesTo [1] S64
  h_S_ : 0 < S_.numel
  bcast_S64x1_S64x3_0_1 : S64x1.BroadcastsInDim S64x3 (![0, 1] : Fin 2 → Fin S64x3.rank)
  dot_S200000x16_S16x32_S200000x32_1_0_0_1_n_n_wf : DotDims.WF S200000x16 S16x32 S200000x32 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  dot_S200000x32_S32x1_S200000x1_1_0_0_1_n_n_wf : DotDims.WF S200000x32 S32x1 S200000x1 [1] [0] [0] [1] [] []
  dot_S200000x32_S32x32_S200000x32_1_0_0_1_n_n_wf : DotDims.WF S200000x32 S32x32 S200000x32 [1] [0] [0] [1] [] []
  scatter_S64x32_S200000x1_S200000x32_1_0_0_1_wf : ScatterDims.WF S64x32 S200000x1 S200000x32 [1] [0] [0] 1
  scatter_S64_S200000x1_S200000_n_0_0_1_wf : ScatterDims.WF S64 S200000x1 S200000 [] [0] [0] 1
  dot_S64x32_S32x64_S64x64_1_0_0_1_n_n_wf : DotDims.WF S64x32 S32x64 S64x64 [1] [0] [0] [1] [] []
  dot_S64x64_S64x32_S64x32_1_0_0_1_n_n_wf : DotDims.WF S64x64 S64x32 S64x32 [1] [0] [0] [1] [] []
  dot_S64x32_S32x3_S64x3_1_0_0_1_n_n_wf : DotDims.WF S64x32 S32x3 S64x3 [1] [0] [0] [1] [] []

variable [Facts₀]

def dot_S200000x16_S16x32_S200000x32_1_0_0_1_n_n : DotDims S200000x16 S16x32 S200000x32 where
  lhsContracting := [1]
  rhsContracting := [0]
  lhsNonContracting := [0]
  rhsNonContracting := [1]
  lhsBatch := []
  rhsBatch := []
  wf := dot_S200000x16_S16x32_S200000x32_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def scatter_S64x32_S200000x1_S200000x32_1_0_0_1 : ScatterDims S64x32 S200000x1 S200000x32 where
  updateWindowDims := [1]
  insertedWindowDims := [0]
  scatterDimsToOperandDims := [0]
  indexVectorDim := 1
  wf := scatter_S64x32_S200000x1_S200000x32_1_0_0_1_wf
def scatter_S64_S200000x1_S200000_n_0_0_1 : ScatterDims S64 S200000x1 S200000 where
  updateWindowDims := []
  insertedWindowDims := [0]
  scatterDimsToOperandDims := [0]
  indexVectorDim := 1
  wf := scatter_S64_S200000x1_S200000_n_0_0_1_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x3_S64x3_1_0_0_1_n_n : DotDims S64x32 S32x3 S64x3 where
  lhsContracting := [1]
  rhsContracting := [0]
  lhsNonContracting := [0]
  rhsNonContracting := [1]
  lhsBatch := []
  rhsBatch := []
  wf := dot_S64x32_S32x3_S64x3_1_0_0_1_n_n_wf

class Facts : Prop extends Facts₀ where

variable [Facts]
-- ==== Proof.KRun.lean ====
/-
  The idealized kernel program's run with its result named. The program is three row-blocked regions among stretches
  of host operations; its buffers at each boundary are a fold from the launch memory (the generated `W0 … W11`), and
  every weakly fair execution ends with every unscoped buffer at the last boundary's contents. Read at the result
  buffer, that is the result's value; read at an argument, its launch contents.
-/
import proofs.«101608_j9878424781268_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents `W11` and every argument array as launched. -/
theorem run : θ_run defs (onTc (τ := τ) (main (F := F))) ⟨m, fun _ => 0, ρ⟩ (fun r => ∀ c : Dev nD,
      r.2.mem ((c.tc : Thread nD τ).loc main_v113) = W11 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v113 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c)⟩)

end Cert.KernelIdeal.ValueRun

end
-- ==== Proof.KChainA.lean ====
/-
  The idealized kernel program's first stretch of host operations, read back, and what is carried unchanged to where
  it is read. From the edge array the stretch forms the source and destination lists with the self-loops appended and
  the per-edge normalisation coefficient (the product of the inverse square roots of the two endpoints' degrees,
  each clamped at one from below), by the operations the reference applies to the same argument; it also lays each
  bias vector out as a row. No later stretch or region writes these, nor the argument arrays.
-/
import proofs.«101608_j9878424781268_1_alg».proof.Proof.Gen.KernelIdeal.Frame
import proofs.«101608_j9878424781268_1_alg».proof.Proof.Gen.ReferenceIdeal.Read

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- A stretch of host operations leaves a buffer none of them writes as it was. -/
local macro "host_keeps" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## After the first stretch -/

/-- The source list. -/
theorem W1_v5 : W1 m ρ c (Proc.devRef .tc main_v5) = val_main_v6 (F := Ideal) (m ((c.tc : Thread nD τ).loc main_arg1)) := by
  show StableHlo.after hostOps0 (W0 m ρ c) (Proc.devRef .tc main_v5) = _
  simp only [hostOps0]
  after_results_simp
  simp only [val_main_v6, val_main_v1, val_main_v0, val_main_v5]
  rfl

/-- The destination list. -/
theorem W1_v6 : W1 m ρ c (Proc.devRef .tc main_v6) = val_main_v7 (F := Ideal) (m ((c.tc : Thread nD τ).loc main_arg1)) := by
  show StableHlo.after hostOps0 (W0 m ρ c) (Proc.devRef .tc main_v6) = _
  simp only [hostOps0]
  after_results_simp
  simp only [val_main_v7, val_main_v3, val_main_v2, val_main_v5]
  rfl

/-- The per-edge coefficient. -/
theorem W1_v28 : W1 m ρ c (Proc.devRef .tc main_v28) = val_main_v29 (F := Ideal) (m ((c.tc : Thread nD τ).loc main_arg1)) := by
  show StableHlo.after hostOps0 (W0 m ρ c) (Proc.devRef .tc main_v28) = _
  simp only [hostOps0]
  after_results_simp
  simp only [val_main_v29, val_main_v21, val_main_v14, val_main_v13, val_main_v11, val_main_v9, val_main_cst_0, val_main_v10, val_main_v7, val_main_v3, val_main_v2, val_main_v5, val_main_v8, val_main_cst, val_main_v12, val_main_cst_1, val_main_v20, val_main_v19, val_main_v16, val_main_v6, val_main_v1, val_main_v0, val_main_v15, val_main_c, val_main_v18, val_main_v17, val_main_c_2, val_main_v28, val_main_v27, val_main_v26, val_main_v23, val_main_v22, val_main_c_3, val_main_v25, val_main_v24, val_main_c_4]
  rfl

/-- A vector of length 32 laid out as a row: entry `(0, k)` is entry `k`. -/
theorem row32_apply (x : S32.Idx → EReal) (h : S32.ShapeCasts S1x32) (k : Fin 32) :
    shapeCast S1x32 x h (ix2 0 k) = x (ix1 k) :=
  shapeCast_apply x h (ix2 0 k) (ix1 k) (by
    rewrite [Shape.rowMajor_val_two, Shape.rowMajor_val_one]
    show k.val = 0 * 32 + k.val
    omega)

/-- The first bias as a row. -/
theorem W1_v29 (k : Fin 32) : W1 m ρ c (Proc.devRef .tc main_v29) (ix2 0 k) = (m ((c.tc : Thread nD τ).loc main_arg4)) (ix1 k) := by
  show StableHlo.after hostOps0 (W0 m ρ c) (Proc.devRef .tc main_v29) (ix2 0 k) = _
  simp only [hostOps0]
  after_results_simp
  exact row32_apply _ _ k

/-- The gate's bias as a one-by-one array. -/
theorem W1_v30 : W1 m ρ c (Proc.devRef .tc main_v30) (ix2 0 0) = (m ((c.tc : Thread nD τ).loc main_arg6)) (ix1 0) := by
  show StableHlo.after hostOps0 (W0 m ρ c) (Proc.devRef .tc main_v30) (ix2 0 0) = _
  simp only [hostOps0]
  after_results_simp
  exact shapeCast_apply _ _ (ix2 0 0) (ix1 0) (by
    rewrite [Shape.rowMajor_val_two, Shape.rowMajor_val_one]
    rfl)

/-- The second bias as a row. -/
theorem W1_v31 (k : Fin 32) : W1 m ρ c (Proc.devRef .tc main_v31) (ix2 0 k) = (m ((c.tc : Thread nD τ).loc main_arg8)) (ix1 k) := by
  show StableHlo.after hostOps0 (W0 m ρ c) (Proc.devRef .tc main_v31) (ix2 0 k) = _
  simp only [hostOps0]
  after_results_simp
  exact row32_apply _ _ k

/-- The third bias as a row is the reference's row of the same vector. -/
theorem W1_v32 : W1 m ρ c (Proc.devRef .tc main_v32) = val_main_v141 (F := Ideal) (m ((c.tc : Thread nD τ).loc main_arg10)) := by
  show StableHlo.after hostOps0 (W0 m ρ c) (Proc.devRef .tc main_v32) = _
  simp only [hostOps0]
  after_results_simp
  funext i
  obtain ⟨p, q, rfl⟩ : ∃ (p : Fin 1) (q : Fin 32), i = ix2 p q := ⟨i 0, i 1, eq_ix2 i⟩
  obtain rfl : p = 0 := Subsingleton.elim _ _
  rw [val_main_v141_apply]
  refine (row32_apply _ _ q).trans ?_
  exact congrArg _ (funext fun a => by match a with | ⟨0, _⟩ => rfl)

/-! ## The argument arrays after the first stretch -/

theorem W1_arg0 : W1 m ρ c (Proc.devRef .tc main_arg0) = m ((c.tc : Thread nD τ).loc main_arg0) :=
  (show StableHlo.after hostOps0 (W0 m ρ c) (Proc.devRef .tc main_arg0) = W0 m ρ c (Proc.devRef .tc main_arg0) by host_keeps hostOps0).trans rfl
theorem W1_arg3 : W1 m ρ c (Proc.devRef .tc main_arg3) = m ((c.tc : Thread nD τ).loc main_arg3) :=
  (show StableHlo.after hostOps0 (W0 m ρ c) (Proc.devRef .tc main_arg3) = W0 m ρ c (Proc.devRef .tc main_arg3) by host_keeps hostOps0).trans rfl
theorem W1_arg5 : W1 m ρ c (Proc.devRef .tc main_arg5) = m ((c.tc : Thread nD τ).loc main_arg5) :=
  (show StableHlo.after hostOps0 (W0 m ρ c) (Proc.devRef .tc main_arg5) = W0 m ρ c (Proc.devRef .tc main_arg5) by host_keeps hostOps0).trans rfl
theorem W1_arg7 : W1 m ρ c (Proc.devRef .tc main_arg7) = m ((c.tc : Thread nD τ).loc main_arg7) :=
  (show StableHlo.after hostOps0 (W0 m ρ c) (Proc.devRef .tc main_arg7) = W0 m ρ c (Proc.devRef .tc main_arg7) by host_keeps hostOps0).trans rfl
theorem W1_arg9 : W1 m ρ c (Proc.devRef .tc main_arg9) = m ((c.tc : Thread nD τ).loc main_arg9) :=
  (show StableHlo.after hostOps0 (W0 m ρ c) (Proc.devRef .tc main_arg9) = W0 m ρ c (Proc.devRef .tc main_arg9) by host_keeps hostOps0).trans rfl
theorem W1_arg2 : W1 m ρ c (Proc.devRef .tc main_arg2) = m ((c.tc : Thread nD τ).loc main_arg2) :=
  (show StableHlo.after hostOps0 (W0 m ρ c) (Proc.devRef .tc main_arg2) = W0 m ρ c (Proc.devRef .tc main_arg2) by host_keeps hostOps0).trans rfl
theorem W1_arg11 : W1 m ρ c (Proc.devRef .tc main_arg11) = m ((c.tc : Thread nD τ).loc main_arg11) :=
  (show StableHlo.after hostOps0 (W0 m ρ c) (Proc.devRef .tc main_arg11) = W0 m ρ c (Proc.devRef .tc main_arg11) by host_keeps hostOps0).trans rfl
theorem W1_arg12 : W1 m ρ c (Proc.devRef .tc main_arg12) = m ((c.tc : Thread nD τ).loc main_arg12) :=
  (show StableHlo.after hostOps0 (W0 m ρ c) (Proc.devRef .tc main_arg12) = W0 m ρ c (Proc.devRef .tc main_arg12) by host_keeps hostOps0).trans rfl
theorem W1_arg13 : W1 m ρ c (Proc.devRef .tc main_arg13) = m ((c.tc : Thread nD τ).loc main_arg13) :=
  (show StableHlo.after hostOps0 (W0 m ρ c) (Proc.devRef .tc main_arg13) = W0 m ρ c (Proc.devRef .tc main_arg13) by host_keeps hostOps0).trans rfl
theorem W1_arg14 : W1 m ρ c (Proc.devRef .tc main_arg14) = m ((c.tc : Thread nD τ).loc main_arg14) :=
  (show StableHlo.after hostOps0 (W0 m ρ c) (Proc.devRef .tc main_arg14) = W0 m ρ c (Proc.devRef .tc main_arg14) by host_keeps hostOps0).trans rfl
theorem W1_arg15 : W1 m ρ c (Proc.devRef .tc main_arg15) = m ((c.tc : Thread nD τ).loc main_arg15) :=
  (show StableHlo.after hostOps0 (W0 m ρ c) (Proc.devRef .tc main_arg15) = W0 m ρ c (Proc.devRef .tc main_arg15) by host_keeps hostOps0).trans rfl
theorem W1_arg16 : W1 m ρ c (Proc.devRef .tc main_arg16) = m ((c.tc : Thread nD τ).loc main_arg16) :=
  (show StableHlo.after hostOps0 (W0 m ρ c) (Proc.devRef .tc main_arg16) = W0 m ρ c (Proc.devRef .tc main_arg16) by host_keeps hostOps0).trans rfl

/-! ## Carried to where they are read -/

theorem keep2_v5 : W2 m ρ c (Proc.devRef .tc main_v5) = W1 m ρ c (Proc.devRef .tc main_v5) :=
  W2_of_ne m ρ c main_v5 (by decide)
theorem keep3_v5 : W3 m ρ c (Proc.devRef .tc main_v5) = W1 m ρ c (Proc.devRef .tc main_v5) :=
  (show StableHlo.after hostOps1 (W2 m ρ c) (Proc.devRef .tc main_v5) = W2 m ρ c (Proc.devRef .tc main_v5) by host_keeps hostOps1).trans (keep2_v5 m ρ c)
theorem keep4_v5 : W4 m ρ c (Proc.devRef .tc main_v5) = W1 m ρ c (Proc.devRef .tc main_v5) :=
  (W4_of_ne m ρ c main_v5 (by decide)).trans (keep3_v5 m ρ c)
theorem keep5_v5 : W5 m ρ c (Proc.devRef .tc main_v5) = W1 m ρ c (Proc.devRef .tc main_v5) :=
  (show StableHlo.after hostOps2 (W4 m ρ c) (Proc.devRef .tc main_v5) = W4 m ρ c (Proc.devRef .tc main_v5) by host_keeps hostOps2).trans (keep4_v5 m ρ c)
theorem keep6_v5 : W6 m ρ c (Proc.devRef .tc main_v5) = W1 m ρ c (Proc.devRef .tc main_v5) :=
  (W6_of_ne m ρ c main_v5 (by decide)).trans (keep5_v5 m ρ c)
theorem keep2_v6 : W2 m ρ c (Proc.devRef .tc main_v6) = W1 m ρ c (Proc.devRef .tc main_v6) :=
  W2_of_ne m ρ c main_v6 (by decide)
theorem keep3_v6 : W3 m ρ c (Proc.devRef .tc main_v6) = W1 m ρ c (Proc.devRef .tc main_v6) :=
  (show StableHlo.after hostOps1 (W2 m ρ c) (Proc.devRef .tc main_v6) = W2 m ρ c (Proc.devRef .tc main_v6) by host_keeps hostOps1).trans (keep2_v6 m ρ c)
theorem keep4_v6 : W4 m ρ c (Proc.devRef .tc main_v6) = W1 m ρ c (Proc.devRef .tc main_v6) :=
  (W4_of_ne m ρ c main_v6 (by decide)).trans (keep3_v6 m ρ c)
theorem keep5_v6 : W5 m ρ c (Proc.devRef .tc main_v6) = W1 m ρ c (Proc.devRef .tc main_v6) :=
  (show StableHlo.after hostOps2 (W4 m ρ c) (Proc.devRef .tc main_v6) = W4 m ρ c (Proc.devRef .tc main_v6) by host_keeps hostOps2).trans (keep4_v6 m ρ c)
theorem keep6_v6 : W6 m ρ c (Proc.devRef .tc main_v6) = W1 m ρ c (Proc.devRef .tc main_v6) :=
  (W6_of_ne m ρ c main_v6 (by decide)).trans (keep5_v6 m ρ c)
theorem keep2_v28 : W2 m ρ c (Proc.devRef .tc main_v28) = W1 m ρ c (Proc.devRef .tc main_v28) :=
  W2_of_ne m ρ c main_v28 (by decide)
theorem keep3_v28 : W3 m ρ c (Proc.devRef .tc main_v28) = W1 m ρ c (Proc.devRef .tc main_v28) :=
  (show StableHlo.after hostOps1 (W2 m ρ c) (Proc.devRef .tc main_v28) = W2 m ρ c (Proc.devRef .tc main_v28) by host_keeps hostOps1).trans (keep2_v28 m ρ c)
theorem keep4_v28 : W4 m ρ c (Proc.devRef .tc main_v28) = W1 m ρ c (Proc.devRef .tc main_v28) :=
  (W4_of_ne m ρ c main_v28 (by decide)).trans (keep3_v28 m ρ c)
theorem keep5_v28 : W5 m ρ c (Proc.devRef .tc main_v28) = W1 m ρ c (Proc.devRef .tc main_v28) :=
  (show StableHlo.after hostOps2 (W4 m ρ c) (Proc.devRef .tc main_v28) = W4 m ρ c (Proc.devRef .tc main_v28) by host_keeps hostOps2).trans (keep4_v28 m ρ c)
theorem keep6_v28 : W6 m ρ c (Proc.devRef .tc main_v28) = W1 m ρ c (Proc.devRef .tc main_v28) :=
  (W6_of_ne m ρ c main_v28 (by decide)).trans (keep5_v28 m ρ c)
theorem keep2_v29 : W2 m ρ c (Proc.devRef .tc main_v29) = W1 m ρ c (Proc.devRef .tc main_v29) :=
  W2_of_ne m ρ c main_v29 (by decide)
theorem keep3_v29 : W3 m ρ c (Proc.devRef .tc main_v29) = W1 m ρ c (Proc.devRef .tc main_v29) :=
  (show StableHlo.after hostOps1 (W2 m ρ c) (Proc.devRef .tc main_v29) = W2 m ρ c (Proc.devRef .tc main_v29) by host_keeps hostOps1).trans (keep2_v29 m ρ c)
theorem keep2_v30 : W2 m ρ c (Proc.devRef .tc main_v30) = W1 m ρ c (Proc.devRef .tc main_v30) :=
  W2_of_ne m ρ c main_v30 (by decide)
theorem keep3_v30 : W3 m ρ c (Proc.devRef .tc main_v30) = W1 m ρ c (Proc.devRef .tc main_v30) :=
  (show StableHlo.after hostOps1 (W2 m ρ c) (Proc.devRef .tc main_v30) = W2 m ρ c (Proc.devRef .tc main_v30) by host_keeps hostOps1).trans (keep2_v30 m ρ c)
theorem keep2_v31 : W2 m ρ c (Proc.devRef .tc main_v31) = W1 m ρ c (Proc.devRef .tc main_v31) :=
  W2_of_ne m ρ c main_v31 (by decide)
theorem keep3_v31 : W3 m ρ c (Proc.devRef .tc main_v31) = W1 m ρ c (Proc.devRef .tc main_v31) :=
  (show StableHlo.after hostOps1 (W2 m ρ c) (Proc.devRef .tc main_v31) = W2 m ρ c (Proc.devRef .tc main_v31) by host_keeps hostOps1).trans (keep2_v31 m ρ c)
theorem keep4_v31 : W4 m ρ c (Proc.devRef .tc main_v31) = W1 m ρ c (Proc.devRef .tc main_v31) :=
  (W4_of_ne m ρ c main_v31 (by decide)).trans (keep3_v31 m ρ c)
theorem keep5_v31 : W5 m ρ c (Proc.devRef .tc main_v31) = W1 m ρ c (Proc.devRef .tc main_v31) :=
  (show StableHlo.after hostOps2 (W4 m ρ c) (Proc.devRef .tc main_v31) = W4 m ρ c (Proc.devRef .tc main_v31) by host_keeps hostOps2).trans (keep4_v31 m ρ c)
theorem keep2_v32 : W2 m ρ c (Proc.devRef .tc main_v32) = W1 m ρ c (Proc.devRef .tc main_v32) :=
  W2_of_ne m ρ c main_v32 (by decide)
theorem keep3_v32 : W3 m ρ c (Proc.devRef .tc main_v32) = W1 m ρ c (Proc.devRef .tc main_v32) :=
  (show StableHlo.after hostOps1 (W2 m ρ c) (Proc.devRef .tc main_v32) = W2 m ρ c (Proc.devRef .tc main_v32) by host_keeps hostOps1).trans (keep2_v32 m ρ c)
theorem keep4_v32 : W4 m ρ c (Proc.devRef .tc main_v32) = W1 m ρ c (Proc.devRef .tc main_v32) :=
  (W4_of_ne m ρ c main_v32 (by decide)).trans (keep3_v32 m ρ c)
theorem keep5_v32 : W5 m ρ c (Proc.devRef .tc main_v32) = W1 m ρ c (Proc.devRef .tc main_v32) :=
  (show StableHlo.after hostOps2 (W4 m ρ c) (Proc.devRef .tc main_v32) = W4 m ρ c (Proc.devRef .tc main_v32) by host_keeps hostOps2).trans (keep4_v32 m ρ c)
theorem keep6_v32 : W6 m ρ c (Proc.devRef .tc main_v32) = W1 m ρ c (Proc.devRef .tc main_v32) :=
  (W6_of_ne m ρ c main_v32 (by decide)).trans (keep5_v32 m ρ c)
theorem keep2_arg5 : W2 m ρ c (Proc.devRef .tc main_arg5) = W1 m ρ c (Proc.devRef .tc main_arg5) :=
  W2_of_ne m ρ c main_arg5 (by decide)
theorem keep3_arg5 : W3 m ρ c (Proc.devRef .tc main_arg5) = W1 m ρ c (Proc.devRef .tc main_arg5) :=
  (show StableHlo.after hostOps1 (W2 m ρ c) (Proc.devRef .tc main_arg5) = W2 m ρ c (Proc.devRef .tc main_arg5) by host_keeps hostOps1).trans (keep2_arg5 m ρ c)
theorem keep2_arg7 : W2 m ρ c (Proc.devRef .tc main_arg7) = W1 m ρ c (Proc.devRef .tc main_arg7) :=
  W2_of_ne m ρ c main_arg7 (by decide)
theorem keep3_arg7 : W3 m ρ c (Proc.devRef .tc main_arg7) = W1 m ρ c (Proc.devRef .tc main_arg7) :=
  (show StableHlo.after hostOps1 (W2 m ρ c) (Proc.devRef .tc main_arg7) = W2 m ρ c (Proc.devRef .tc main_arg7) by host_keeps hostOps1).trans (keep2_arg7 m ρ c)
theorem keep2_arg9 : W2 m ρ c (Proc.devRef .tc main_arg9) = W1 m ρ c (Proc.devRef .tc main_arg9) :=
  W2_of_ne m ρ c main_arg9 (by decide)
theorem keep3_arg9 : W3 m ρ c (Proc.devRef .tc main_arg9) = W1 m ρ c (Proc.devRef .tc main_arg9) :=
  (show StableHlo.after hostOps1 (W2 m ρ c) (Proc.devRef .tc main_arg9) = W2 m ρ c (Proc.devRef .tc main_arg9) by host_keeps hostOps1).trans (keep2_arg9 m ρ c)
theorem keep4_arg9 : W4 m ρ c (Proc.devRef .tc main_arg9) = W1 m ρ c (Proc.devRef .tc main_arg9) :=
  (W4_of_ne m ρ c main_arg9 (by decide)).trans (keep3_arg9 m ρ c)
theorem keep5_arg9 : W5 m ρ c (Proc.devRef .tc main_arg9) = W1 m ρ c (Proc.devRef .tc main_arg9) :=
  (show StableHlo.after hostOps2 (W4 m ρ c) (Proc.devRef .tc main_arg9) = W4 m ρ c (Proc.devRef .tc main_arg9) by host_keeps hostOps2).trans (keep4_arg9 m ρ c)
theorem keep2_arg2 : W2 m ρ c (Proc.devRef .tc main_arg2) = W1 m ρ c (Proc.devRef .tc main_arg2) :=
  W2_of_ne m ρ c main_arg2 (by decide)
theorem keep3_arg2 : W3 m ρ c (Proc.devRef .tc main_arg2) = W1 m ρ c (Proc.devRef .tc main_arg2) :=
  (show StableHlo.after hostOps1 (W2 m ρ c) (Proc.devRef .tc main_arg2) = W2 m ρ c (Proc.devRef .tc main_arg2) by host_keeps hostOps1).trans (keep2_arg2 m ρ c)
theorem keep4_arg2 : W4 m ρ c (Proc.devRef .tc main_arg2) = W1 m ρ c (Proc.devRef .tc main_arg2) :=
  (W4_of_ne m ρ c main_arg2 (by decide)).trans (keep3_arg2 m ρ c)
theorem keep5_arg2 : W5 m ρ c (Proc.devRef .tc main_arg2) = W1 m ρ c (Proc.devRef .tc main_arg2) :=
  (show StableHlo.after hostOps2 (W4 m ρ c) (Proc.devRef .tc main_arg2) = W4 m ρ c (Proc.devRef .tc main_arg2) by host_keeps hostOps2).trans (keep4_arg2 m ρ c)
theorem keep6_arg2 : W6 m ρ c (Proc.devRef .tc main_arg2) = W1 m ρ c (Proc.devRef .tc main_arg2) :=
  (W6_of_ne m ρ c main_arg2 (by decide)).trans (keep5_arg2 m ρ c)
theorem keep2_arg11 : W2 m ρ c (Proc.devRef .tc main_arg11) = W1 m ρ c (Proc.devRef .tc main_arg11) :=
  W2_of_ne m ρ c main_arg11 (by decide)
theorem keep3_arg11 : W3 m ρ c (Proc.devRef .tc main_arg11) = W1 m ρ c (Proc.devRef .tc main_arg11) :=
  (show StableHlo.after hostOps1 (W2 m ρ c) (Proc.devRef .tc main_arg11) = W2 m ρ c (Proc.devRef .tc main_arg11) by host_keeps hostOps1).trans (keep2_arg11 m ρ c)
theorem keep4_arg11 : W4 m ρ c (Proc.devRef .tc main_arg11) = W1 m ρ c (Proc.devRef .tc main_arg11) :=
  (W4_of_ne m ρ c main_arg11 (by decide)).trans (keep3_arg11 m ρ c)
theorem keep5_arg11 : W5 m ρ c (Proc.devRef .tc main_arg11) = W1 m ρ c (Proc.devRef .tc main_arg11) :=
  (show StableHlo.after hostOps2 (W4 m ρ c) (Proc.devRef .tc main_arg11) = W4 m ρ c (Proc.devRef .tc main_arg11) by host_keeps hostOps2).trans (keep4_arg11 m ρ c)
theorem keep6_arg11 : W6 m ρ c (Proc.devRef .tc main_arg11) = W1 m ρ c (Proc.devRef .tc main_arg11) :=
  (W6_of_ne m ρ c main_arg11 (by decide)).trans (keep5_arg11 m ρ c)
theorem keep2_arg12 : W2 m ρ c (Proc.devRef .tc main_arg12) = W1 m ρ c (Proc.devRef .tc main_arg12) :=
  W2_of_ne m ρ c main_arg12 (by decide)
theorem keep3_arg12 : W3 m ρ c (Proc.devRef .tc main_arg12) = W1 m ρ c (Proc.devRef .tc main_arg12) :=
  (show StableHlo.after hostOps1 (W2 m ρ c) (Proc.devRef .tc main_arg12) = W2 m ρ c (Proc.devRef .tc main_arg12) by host_keeps hostOps1).trans (keep2_arg12 m ρ c)
theorem keep4_arg12 : W4 m ρ c (Proc.devRef .tc main_arg12) = W1 m ρ c (Proc.devRef .tc main_arg12) :=
  (W4_of_ne m ρ c main_arg12 (by decide)).trans (keep3_arg12 m ρ c)
theorem keep5_arg12 : W5 m ρ c (Proc.devRef .tc main_arg12) = W1 m ρ c (Proc.devRef .tc main_arg12) :=
  (show StableHlo.after hostOps2 (W4 m ρ c) (Proc.devRef .tc main_arg12) = W4 m ρ c (Proc.devRef .tc main_arg12) by host_keeps hostOps2).trans (keep4_arg12 m ρ c)
theorem keep6_arg12 : W6 m ρ c (Proc.devRef .tc main_arg12) = W1 m ρ c (Proc.devRef .tc main_arg12) :=
  (W6_of_ne m ρ c main_arg12 (by decide)).trans (keep5_arg12 m ρ c)
theorem keep2_arg13 : W2 m ρ c (Proc.devRef .tc main_arg13) = W1 m ρ c (Proc.devRef .tc main_arg13) :=
  W2_of_ne m ρ c main_arg13 (by decide)
theorem keep3_arg13 : W3 m ρ c (Proc.devRef .tc main_arg13) = W1 m ρ c (Proc.devRef .tc main_arg13) :=
  (show StableHlo.after hostOps1 (W2 m ρ c) (Proc.devRef .tc main_arg13) = W2 m ρ c (Proc.devRef .tc main_arg13) by host_keeps hostOps1).trans (keep2_arg13 m ρ c)
theorem keep4_arg13 : W4 m ρ c (Proc.devRef .tc main_arg13) = W1 m ρ c (Proc.devRef .tc main_arg13) :=
  (W4_of_ne m ρ c main_arg13 (by decide)).trans (keep3_arg13 m ρ c)
theorem keep5_arg13 : W5 m ρ c (Proc.devRef .tc main_arg13) = W1 m ρ c (Proc.devRef .tc main_arg13) :=
  (show StableHlo.after hostOps2 (W4 m ρ c) (Proc.devRef .tc main_arg13) = W4 m ρ c (Proc.devRef .tc main_arg13) by host_keeps hostOps2).trans (keep4_arg13 m ρ c)
theorem keep6_arg13 : W6 m ρ c (Proc.devRef .tc main_arg13) = W1 m ρ c (Proc.devRef .tc main_arg13) :=
  (W6_of_ne m ρ c main_arg13 (by decide)).trans (keep5_arg13 m ρ c)
theorem keep2_arg14 : W2 m ρ c (Proc.devRef .tc main_arg14) = W1 m ρ c (Proc.devRef .tc main_arg14) :=
  W2_of_ne m ρ c main_arg14 (by decide)
theorem keep3_arg14 : W3 m ρ c (Proc.devRef .tc main_arg14) = W1 m ρ c (Proc.devRef .tc main_arg14) :=
  (show StableHlo.after hostOps1 (W2 m ρ c) (Proc.devRef .tc main_arg14) = W2 m ρ c (Proc.devRef .tc main_arg14) by host_keeps hostOps1).trans (keep2_arg14 m ρ c)
theorem keep4_arg14 : W4 m ρ c (Proc.devRef .tc main_arg14) = W1 m ρ c (Proc.devRef .tc main_arg14) :=
  (W4_of_ne m ρ c main_arg14 (by decide)).trans (keep3_arg14 m ρ c)
theorem keep5_arg14 : W5 m ρ c (Proc.devRef .tc main_arg14) = W1 m ρ c (Proc.devRef .tc main_arg14) :=
  (show StableHlo.after hostOps2 (W4 m ρ c) (Proc.devRef .tc main_arg14) = W4 m ρ c (Proc.devRef .tc main_arg14) by host_keeps hostOps2).trans (keep4_arg14 m ρ c)
theorem keep6_arg14 : W6 m ρ c (Proc.devRef .tc main_arg14) = W1 m ρ c (Proc.devRef .tc main_arg14) :=
  (W6_of_ne m ρ c main_arg14 (by decide)).trans (keep5_arg14 m ρ c)
theorem keep2_arg15 : W2 m ρ c (Proc.devRef .tc main_arg15) = W1 m ρ c (Proc.devRef .tc main_arg15) :=
  W2_of_ne m ρ c main_arg15 (by decide)
theorem keep3_arg15 : W3 m ρ c (Proc.devRef .tc main_arg15) = W1 m ρ c (Proc.devRef .tc main_arg15) :=
  (show StableHlo.after hostOps1 (W2 m ρ c) (Proc.devRef .tc main_arg15) = W2 m ρ c (Proc.devRef .tc main_arg15) by host_keeps hostOps1).trans (keep2_arg15 m ρ c)
theorem keep4_arg15 : W4 m ρ c (Proc.devRef .tc main_arg15) = W1 m ρ c (Proc.devRef .tc main_arg15) :=
  (W4_of_ne m ρ c main_arg15 (by decide)).trans (keep3_arg15 m ρ c)
theorem keep5_arg15 : W5 m ρ c (Proc.devRef .tc main_arg15) = W1 m ρ c (Proc.devRef .tc main_arg15) :=
  (show StableHlo.after hostOps2 (W4 m ρ c) (Proc.devRef .tc main_arg15) = W4 m ρ c (Proc.devRef .tc main_arg15) by host_keeps hostOps2).trans (keep4_arg15 m ρ c)
theorem keep6_arg15 : W6 m ρ c (Proc.devRef .tc main_arg15) = W1 m ρ c (Proc.devRef .tc main_arg15) :=
  (W6_of_ne m ρ c main_arg15 (by decide)).trans (keep5_arg15 m ρ c)
theorem keep2_arg16 : W2 m ρ c (Proc.devRef .tc main_arg16) = W1 m ρ c (Proc.devRef .tc main_arg16) :=
  W2_of_ne m ρ c main_arg16 (by decide)
theorem keep3_arg16 : W3 m ρ c (Proc.devRef .tc main_arg16) = W1 m ρ c (Proc.devRef .tc main_arg16) :=
  (show StableHlo.after hostOps1 (W2 m ρ c) (Proc.devRef .tc main_arg16) = W2 m ρ c (Proc.devRef .tc main_arg16) by host_keeps hostOps1).trans (keep2_arg16 m ρ c)
theorem keep4_arg16 : W4 m ρ c (Proc.devRef .tc main_arg16) = W1 m ρ c (Proc.devRef .tc main_arg16) :=
  (W4_of_ne m ρ c main_arg16 (by decide)).trans (keep3_arg16 m ρ c)
theorem keep5_arg16 : W5 m ρ c (Proc.devRef .tc main_arg16) = W1 m ρ c (Proc.devRef .tc main_arg16) :=
  (show StableHlo.after hostOps2 (W4 m ρ c) (Proc.devRef .tc main_arg16) = W4 m ρ c (Proc.devRef .tc main_arg16) by host_keeps hostOps2).trans (keep4_arg16 m ρ c)
theorem keep6_arg16 : W6 m ρ c (Proc.devRef .tc main_arg16) = W1 m ρ c (Proc.devRef .tc main_arg16) :=
  (W6_of_ne m ρ c main_arg16 (by decide)).trans (keep5_arg16 m ρ c)

end Cert.KernelIdeal.Chain

end
-- ==== Proof.RefChain.lean ====
/-
  The reference forms the edge lists with self-loops and the per-edge normalisation coefficient afresh in each of its
  three layers, from the same argument by the same operations: the second and third copies are the first.
-/
import proofs.«101608_j9878424781268_1_alg».proof.Proof.Gen.ReferenceIdeal.Read

set_option maxRecDepth 16384

noncomputable section

namespace Cert.ReferenceIdeal.Copies

open Cert.ReferenceIdeal Cert.ReferenceIdeal.Read Idealize.ShloMosaic

variable {F : FTy → Type} [FloatOps F]

/-- The second layer's source list (sources, then the self-loops) is the first layer's. -/
theorem src2 (x1 : (⟨S2x6400000, .i32⟩ : BufTy).Contents (Elt F)) : val_main_v61 (F := F) x1 = val_main_v6 (F := F) x1 := rfl
/-- The second layer's destination list is the first layer's. -/
theorem dst2 (x1 : (⟨S2x6400000, .i32⟩ : BufTy).Contents (Elt F)) : val_main_v62 (F := F) x1 = val_main_v7 (F := F) x1 := rfl
/-- The third layer's source list is the first layer's. -/
theorem src3 (x1 : (⟨S2x6400000, .i32⟩ : BufTy).Contents (Elt F)) : val_main_v104 (F := F) x1 = val_main_v6 (F := F) x1 := rfl
/-- The third layer's destination list is the first layer's. -/
theorem dst3 (x1 : (⟨S2x6400000, .i32⟩ : BufTy).Contents (Elt F)) : val_main_v105 (F := F) x1 = val_main_v7 (F := F) x1 := rfl

/-- The second layer's coefficient is the first layer's. -/
theorem coef2 (x1 : (⟨S2x6400000, .i32⟩ : BufTy).Contents (Elt F)) : val_main_v84 (F := F) x1 = val_main_v29 (F := F) x1 := by
  simp only [val_main_v84, val_main_v76, val_main_v69, val_main_v68, val_main_v66, val_main_v64, val_main_cst_11, val_main_v65, val_main_v63, val_main_cst_10, val_main_v67, val_main_cst_12, val_main_v75, val_main_v74, val_main_v71, val_main_v70, val_main_c_13, val_main_v73, val_main_v72, val_main_c_14, val_main_v83, val_main_v82, val_main_v81, val_main_v78, val_main_v77, val_main_c_15, val_main_v80, val_main_v79, val_main_c_16, src2, dst2]
  simp only [val_main_v29, val_main_v21, val_main_v14, val_main_v13, val_main_v11, val_main_v9, val_main_cst_0, val_main_v10, val_main_v8, val_main_cst, val_main_v12, val_main_cst_1, val_main_v20, val_main_v19, val_main_v16, val_main_v15, val_main_c, val_main_v18, val_main_v17, val_main_c_2, val_main_v28, val_main_v27, val_main_v26, val_main_v23, val_main_v22, val_main_c_3, val_main_v25, val_main_v24, val_main_c_4]

/-- The third layer's coefficient is the first layer's. -/
theorem coef3 (x1 : (⟨S2x6400000, .i32⟩ : BufTy).Contents (Elt F)) : val_main_v127 (F := F) x1 = val_main_v29 (F := F) x1 := by
  simp only [val_main_v127, val_main_v119, val_main_v112, val_main_v111, val_main_v109, val_main_v107, val_main_cst_21, val_main_v108, val_main_v106, val_main_cst_20, val_main_v110, val_main_cst_22, val_main_v118, val_main_v117, val_main_v114, val_main_v113, val_main_c_23, val_main_v116, val_main_v115, val_main_c_24, val_main_v126, val_main_v125, val_main_v124, val_main_v121, val_main_v120, val_main_c_25, val_main_v123, val_main_v122, val_main_c_26, src3, dst3]
  simp only [val_main_v29, val_main_v21, val_main_v14, val_main_v13, val_main_v11, val_main_v9, val_main_cst_0, val_main_v10, val_main_v8, val_main_cst, val_main_v12, val_main_cst_1, val_main_v20, val_main_v19, val_main_v16, val_main_v15, val_main_c, val_main_v18, val_main_v17, val_main_c_2, val_main_v28, val_main_v27, val_main_v26, val_main_v23, val_main_v22, val_main_c_3, val_main_v25, val_main_v24, val_main_c_4]

end Cert.ReferenceIdeal.Copies

end
-- ==== Proof.Spec.lean ====
/-
  The dense per-node stages of the three graph-convolution layers, as functions of whole arrays over the extended
  reals, index by index. A node's row is multiplied by a small weight matrix; before the second and third products
  the aggregated row gets its bias and is clamped at zero from below; before the second product the clamped row is
  also scaled by a gate, the logistic function of its inner product with a weight column plus a scalar bias.
-/
import Idealize.ShloMosaic.PureOps.Ideal
import Idealize.ShloMosaic.Lib.ValueIdx

noncomputable section

namespace Cert.Gcn

open Idealize.ShloMosaic Idealize.ShloMosaic.ValueIdx

/-- An `a × b` array of extended reals. -/
abbrev Mat (a b : Nat) : Type := (⟨2, ![a, b]⟩ : Shape).Idx → EReal

/-- The first layer's product: entry `(r, j)` is `∑ k, x (r, k) · w (k, j)`. -/
def dense1 (x : Mat 200000 16) (w : Mat 16 32) : Mat 200000 32 :=
  fun i => ∑ k : Fin 16, x (ix2 (i 0) k) * w (ix2 k (i 1))

/-- Bias, then the clamp at zero: `max (a (r, k) + b (0, k)) 0`. -/
def relu (a : Mat 200000 32) (b : Mat 1 32) (r : Fin 200000) (k : Fin 32) : EReal :=
  max (a (ix2 r k) + b (ix2 0 k)) (Ideal.ofBits .f32 0x00000000#32)

/-- The gate of row `r`: the logistic function of `∑ k, relu (r, k) · wg (k, 0) + bg (0, 0)`. -/
def gate (a : Mat 200000 32) (b : Mat 1 32) (wg : Mat 32 1) (bg : Mat 1 1) (r : Fin 200000) : EReal :=
  Ideal.logistic ((∑ k : Fin 32, relu a b r k * wg (ix2 k 0)) + bg (ix2 0 0))

/-- The second layer's product, of the gated clamped rows: entry `(r, j)` is `∑ k, (relu (r, k) · gate r) · w (k, j)`. -/
def dense2 (a : Mat 200000 32) (b : Mat 1 32) (wg : Mat 32 1) (bg : Mat 1 1) (w : Mat 32 32) : Mat 200000 32 :=
  fun i => ∑ k : Fin 32, (relu a b (i 0) k * gate a b wg bg (i 0)) * w (ix2 k (i 1))

/-- The third layer's product, of the clamped rows: entry `(r, j)` is `∑ k, relu (r, k) · w (k, j)`. -/
def dense3 (a : Mat 200000 32) (b : Mat 1 32) (w : Mat 32 32) : Mat 200000 32 :=
  fun i => ∑ k : Fin 32, relu a b (i 0) k * w (ix2 k (i 1))

end Cert.Gcn

end
-- ==== Proof.RefDense.lean ====
/-
  The reference's dense stages are the functions of `Spec`. Its first product is `x · W1`; its second layer adds the
  bias to the aggregated rows, clamps at zero, forms the gate `1 / (1 + exp (−(h · wg + bg)))` — the logistic function
  — scales the row by it and multiplies by `W2`; its third adds the bias, clamps and multiplies by `W3`. Each is read
  index by index through the generated read-at-an-index lemmas; the aggregated arrays stay opaque.
-/
import proofs.«101608_j9878424781268_1_alg».proof.Proof.Gen.ReferenceIdeal.Read
import proofs.«101608_j9878424781268_1_alg».proof.Proof.Spec
import Idealize.ShloMosaic.Lib.IdealHost

noncomputable section

namespace Cert.ReferenceIdeal.Dense

open Cert.ReferenceIdeal Cert.ReferenceIdeal.Read Idealize.ShloMosaic Idealize.ShloMosaic.ValueIdx Cert.Gcn

/-- The first product is `dense1`. -/
theorem first (x0 : (⟨S200000x16, .f32⟩ : BufTy).Contents (Elt Ideal)) (x3 : (⟨S16x32, .f32⟩ : BufTy).Contents (Elt Ideal)) :
    val_main_v4 (F := Ideal) x0 x3 = dense1 x0 x3 := by
  funext i
  obtain ⟨p, q, rfl⟩ : ∃ (p : Fin 200000) (q : Fin 32), i = ix2 p q := ⟨i 0, i 1, eq_ix2 i⟩
  rw [val_main_v4_apply]
  show _ = ∑ k : Fin 16, x0 (ix2 p k) * x3 (ix2 k q)
  refine Finset.sum_congr rfl fun k _ => ?_
  have el : lidx_main_v4 (ix2 p q) k = ix2 p k := funext fun a => by match a with | ⟨0, _⟩ => rfl | ⟨1, _⟩ => rfl
  have er : ridx_main_v4 (ix2 p q) k = ix2 k q := funext fun a => by match a with | ⟨0, _⟩ => rfl | ⟨1, _⟩ => rfl
  rw [el, er]

/-- The clamped biased row of the second layer, for any bias row holding the bias vector. -/
theorem relu2 (x0 : (⟨S200000x16, .f32⟩ : BufTy).Contents (Elt Ideal)) (x1 : (⟨S2x6400000, .i32⟩ : BufTy).Contents (Elt Ideal)) (x3 : (⟨S16x32, .f32⟩ : BufTy).Contents (Elt Ideal)) (x4 : (⟨S32, .f32⟩ : BufTy).Contents (Elt Ideal)) (b : Mat 1 32)
    (hb : ∀ k : Fin 32, b (ix2 0 k) = x4 (ix1 k)) (r : Fin 200000) (k : Fin 32) :
    val_main_v46 (F := Ideal) x0 x1 x3 x4 (ix2 r k) = relu (val_main_v42 (F := Ideal) x0 x1 x3) b r k := by
  rw [val_main_v46_apply, val_main_v45_apply, val_main_v44_apply, val_main_v43_apply, val_main_call0_v0_apply,
    val_main_call0_cst_apply]
  unfold relu
  rw [hb k]
  have e : idx_main_v43 (idx_main_v44 (ix2 r k)) = ix1 k := funext fun a => by match a with | ⟨0, _⟩ => rfl
  rw [e]
  rfl

/-- The gate of a row is the logistic function of the row's inner product with the weight column plus the bias. -/
theorem gate2 (x0 : (⟨S200000x16, .f32⟩ : BufTy).Contents (Elt Ideal)) (x1 : (⟨S2x6400000, .i32⟩ : BufTy).Contents (Elt Ideal)) (x3 : (⟨S16x32, .f32⟩ : BufTy).Contents (Elt Ideal)) (x4 : (⟨S32, .f32⟩ : BufTy).Contents (Elt Ideal)) (x5 : (⟨S32x1, .f32⟩ : BufTy).Contents (Elt Ideal)) (x6 : (⟨S1, .f32⟩ : BufTy).Contents (Elt Ideal)) (b : Mat 1 32) (bg : Mat 1 1)
    (hb : ∀ k : Fin 32, b (ix2 0 k) = x4 (ix1 k)) (hg : bg (ix2 0 0) = x6 (ix1 0)) (r : Fin 200000) :
    val_main_v56 (F := Ideal) x0 x1 x3 x4 x5 x6 (ix2 r 0) = gate (val_main_v42 (F := Ideal) x0 x1 x3) b x5 bg r := by
  rw [val_main_v56_apply, val_main_v55_apply, val_main_cst_9_apply, val_main_v54_apply, val_main_v53_apply,
    val_main_cst_8_apply, val_main_v52_apply, val_main_v51_apply, val_main_v50_apply, val_main_v49_apply,
    val_main_v48_apply, val_main_v47_apply]
  unfold gate
  rw [hg]
  have e : idx_main_v48 (idx_main_v49 (ix2 r 0)) = ix1 0 := funext fun a => by match a with | ⟨0, _⟩ => rfl
  rw [e]
  have hs : (∑ k : Fin 32, val_main_v46 (F := Ideal) x0 x1 x3 x4 (lidx_main_v47 (ix2 r 0) k) * x5 (ridx_main_v47 (ix2 r 0) k))
      = ∑ k : Fin 32, relu (val_main_v42 (F := Ideal) x0 x1 x3) b r k * x5 (ix2 k 0) := by
    refine Finset.sum_congr rfl fun k _ => ?_
    have el : lidx_main_v47 (ix2 r (0 : Fin 1)) k = ix2 r k := funext fun a => by match a with | ⟨0, _⟩ => rfl | ⟨1, _⟩ => rfl
    have er : ridx_main_v47 (ix2 r (0 : Fin 1)) k = ix2 k 0 := funext fun a => by match a with | ⟨0, _⟩ => rfl | ⟨1, _⟩ => rfl
    rw [el, er, relu2 x0 x1 x3 x4 b hb r k]
  rw [hs]
  simp only [Ideal.hostDivf_def, Ideal.ofBits_def, Ideal.ofBits_one_f32, Ideal.addf_def, Ideal.hostUnary_exp_def,
    Ideal.hostNegf_def, Ideal.negf_def, Ideal.logistic]

/-- The second product is `dense2` of the aggregated first layer. -/
theorem second (x0 : (⟨S200000x16, .f32⟩ : BufTy).Contents (Elt Ideal)) (x1 : (⟨S2x6400000, .i32⟩ : BufTy).Contents (Elt Ideal)) (x3 : (⟨S16x32, .f32⟩ : BufTy).Contents (Elt Ideal)) (x4 : (⟨S32, .f32⟩ : BufTy).Contents (Elt Ideal)) (x5 : (⟨S32x1, .f32⟩ : BufTy).Contents (Elt Ideal)) (x6 : (⟨S1, .f32⟩ : BufTy).Contents (Elt Ideal)) (x7 : (⟨S32x32, .f32⟩ : BufTy).Contents (Elt Ideal)) (b : Mat 1 32) (bg : Mat 1 1)
    (hb : ∀ k : Fin 32, b (ix2 0 k) = x4 (ix1 k)) (hg : bg (ix2 0 0) = x6 (ix1 0)) :
    val_main_v59 (F := Ideal) x0 x1 x3 x4 x5 x6 x7 = dense2 (val_main_v42 (F := Ideal) x0 x1 x3) b x5 bg x7 := by
  funext i
  obtain ⟨p, q, rfl⟩ : ∃ (p : Fin 200000) (q : Fin 32), i = ix2 p q := ⟨i 0, i 1, eq_ix2 i⟩
  rw [val_main_v59_apply]
  show _ = ∑ k : Fin 32, (relu (val_main_v42 (F := Ideal) x0 x1 x3) b p k * gate (val_main_v42 (F := Ideal) x0 x1 x3) b x5 bg p) * x7 (ix2 k q)
  refine Finset.sum_congr rfl fun k _ => ?_
  have el : lidx_main_v59 (ix2 p q) k = ix2 p k := funext fun a => by match a with | ⟨0, _⟩ => rfl | ⟨1, _⟩ => rfl
  have er : ridx_main_v59 (ix2 p q) k = ix2 k q := funext fun a => by match a with | ⟨0, _⟩ => rfl | ⟨1, _⟩ => rfl
  rw [el, er, val_main_v58_apply, val_main_v57_apply]
  have em : idx_main_v57 (ix2 p k) = ix2 p (0 : Fin 1) := funext fun a => by match a with | ⟨0, _⟩ => rfl | ⟨1, _⟩ => rfl
  rw [em, relu2 x0 x1 x3 x4 b hb p k, gate2 x0 x1 x3 x4 x5 x6 b bg hb hg p]
  rfl

/-- The clamped biased row of the third layer. -/
theorem relu3 (x0 : (⟨S200000x16, .f32⟩ : BufTy).Contents (Elt Ideal)) (x1 : (⟨S2x6400000, .i32⟩ : BufTy).Contents (Elt Ideal)) (x3 : (⟨S16x32, .f32⟩ : BufTy).Contents (Elt Ideal)) (x4 : (⟨S32, .f32⟩ : BufTy).Contents (Elt Ideal)) (x5 : (⟨S32x1, .f32⟩ : BufTy).Contents (Elt Ideal)) (x6 : (⟨S1, .f32⟩ : BufTy).Contents (Elt Ideal)) (x7 : (⟨S32x32, .f32⟩ : BufTy).Contents (Elt Ideal)) (x8 : (⟨S32, .f32⟩ : BufTy).Contents (Elt Ideal)) (b : Mat 1 32)
    (hb : ∀ k : Fin 32, b (ix2 0 k) = x8 (ix1 k)) (r : Fin 200000) (k : Fin 32) :
    val_main_v101 (F := Ideal) x0 x1 x3 x4 x5 x6 x7 x8 (ix2 r k) = relu (val_main_v97 (F := Ideal) x0 x1 x3 x4 x5 x6 x7) b r k := by
  rw [val_main_v101_apply, val_main_v100_apply, val_main_v99_apply, val_main_v98_apply, val_main_call1_v0_apply,
    val_main_call1_cst_apply]
  unfold relu
  rw [hb k]
  have e : idx_main_v98 (idx_main_v99 (ix2 r k)) = ix1 k := funext fun a => by match a with | ⟨0, _⟩ => rfl
  rw [e]
  rfl

/-- The third product is `dense3` of the aggregated second layer. -/
theorem third (x0 : (⟨S200000x16, .f32⟩ : BufTy).Contents (Elt Ideal)) (x1 : (⟨S2x6400000, .i32⟩ : BufTy).Contents (Elt Ideal)) (x3 : (⟨S16x32, .f32⟩ : BufTy).Contents (Elt Ideal)) (x4 : (⟨S32, .f32⟩ : BufTy).Contents (Elt Ideal)) (x5 : (⟨S32x1, .f32⟩ : BufTy).Contents (Elt Ideal)) (x6 : (⟨S1, .f32⟩ : BufTy).Contents (Elt Ideal)) (x7 : (⟨S32x32, .f32⟩ : BufTy).Contents (Elt Ideal)) (x8 : (⟨S32, .f32⟩ : BufTy).Contents (Elt Ideal)) (x9 : (⟨S32x32, .f32⟩ : BufTy).Contents (Elt Ideal)) (b : Mat 1 32)
    (hb : ∀ k : Fin 32, b (ix2 0 k) = x8 (ix1 k)) :
    val_main_v102 (F := Ideal) x0 x1 x3 x4 x5 x6 x7 x8 x9 = dense3 (val_main_v97 (F := Ideal) x0 x1 x3 x4 x5 x6 x7) b x9 := by
  funext i
  obtain ⟨p, q, rfl⟩ : ∃ (p : Fin 200000) (q : Fin 32), i = ix2 p q := ⟨i 0, i 1, eq_ix2 i⟩
  rw [val_main_v102_apply]
  show _ = ∑ k : Fin 32, relu (val_main_v97 (F := Ideal) x0 x1 x3 x4 x5 x6 x7) b p k * x9 (ix2 k q)
  refine Finset.sum_congr rfl fun k _ => ?_
  have el : lidx_main_v102 (ix2 p q) k = ix2 p k := funext fun a => by match a with | ⟨0, _⟩ => rfl | ⟨1, _⟩ => rfl
  have er : ridx_main_v102 (ix2 p q) k = ix2 k q := funext fun a => by match a with | ⟨0, _⟩ => rfl | ⟨1, _⟩ => rfl
  rw [el, er, relu3 x0 x1 x3 x4 x5 x6 x7 x8 b hb p k]

end Cert.ReferenceIdeal.Dense

end
-- ==== Proof.Region0.lean ====
/-
  The first region: a grid of 20 points, point `t` multiplying rows `10000 t … 10000 t + 9999` of the node
  features by the whole 16 × 32 weight matrix. Entry `(p, q)` of a block product is the sum over the 16 shared
  coordinates; the blocks tile the rows, so the output array after the 20 points is the whole product.
-/
import proofs.«101608_j9878424781268_1_alg».proof.Proof.Gen.KernelIdeal.Frame
import proofs.«101608_j9878424781268_1_alg».proof.Proof.Spec
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## The block product at an entry -/

/-- On the rows' axis the left operand is read at the output's row. -/
theorem lhs_row (i : S10000x32.Idx) (r : dot_S10000x16_S16x32_S10000x32_1_0_0_1_n_n.contr.Idx) :
    (dot_S10000x16_S16x32_S10000x32_1_0_0_1_n_n.lhsIdx i r 0).val = (i 0).val := by
  unfold DotDims.lhsIdx
  rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
  rfl

/-- On the columns' axis the right operand is read at the output's column. -/
theorem rhs_col (i : S10000x32.Idx) (r : dot_S10000x16_S16x32_S10000x32_1_0_0_1_n_n.contr.Idx) :
    (dot_S10000x16_S16x32_S10000x32_1_0_0_1_n_n.rhsIdx i r 1).val = (i 1).val := by
  unfold DotDims.rhsIdx
  rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
  rfl

/-- The block product at an entry: the sum over the 16 shared coordinates. -/
theorem pay_apply (x : Vec Ideal S10000x16 .f32) (w : Vec Ideal S16x32 .f32) (p : Fin 10000) (q : Fin 32) :
    k0_pay1 (F := Ideal) x w (ix2 p q) = ∑ k : Fin 16, x (ix2 p k) * w (ix2 k q) := by
  unfold k0_pay1
  refine (Ideal.matmul_constant_zero_apply dot_S10000x16_S16x32_S10000x32_1_0_0_1_n_n none _ _ (ix2 p q)).trans ?_
  rw [← Equiv.sum_comp (contrEquiv1 dot_S10000x16_S16x32_S10000x32_1_0_0_1_n_n 16 rfl rfl).symm]
  refine Finset.sum_congr rfl fun k _ => ?_
  have hk := contrEquiv1_symm_val dot_S10000x16_S16x32_S10000x32_1_0_0_1_n_n 16 rfl rfl k
  have el : dot_S10000x16_S16x32_S10000x32_1_0_0_1_n_n.lhsIdx (ix2 p q) ((contrEquiv1 dot_S10000x16_S16x32_S10000x32_1_0_0_1_n_n 16 rfl rfl).symm k) = ix2 p k := funext fun a => Fin.ext (by
    match a with
    | ⟨0, _⟩ => exact lhs_row _ _
    | ⟨1, _⟩ => exact (dot_S10000x16_S16x32_S10000x32_1_0_0_1_n_n.lhsIdx_val_of_single rfl _ _).trans hk)
  have er : dot_S10000x16_S16x32_S10000x32_1_0_0_1_n_n.rhsIdx (ix2 p q) ((contrEquiv1 dot_S10000x16_S16x32_S10000x32_1_0_0_1_n_n 16 rfl rfl).symm k) = ix2 k q := funext fun a => Fin.ext (by
    match a with
    | ⟨0, _⟩ => exact (dot_S10000x16_S16x32_S10000x32_1_0_0_1_n_n.rhsIdx_val_of_single rfl _ _).trans hk
    | ⟨1, _⟩ => exact rhs_col _ _)
  rw [el, er]
  rfl

/-! ## From blocks to the array -/

variable (V : (c : Dev nD) → (b : Ref sig .tc) → Buf (Elt Ideal) ((c : Thread nD τ).loc b))

theorem off_zero : (![0, 0] : Fin 2 → Nat) = fun _ => 0 := funext fun a => by fin_cases a <;> rfl

/-- The block index maps over the 20 grid points: the node features and the product move together along the
    rows, point `t` at row block `t`; every other block coordinate is 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- The feature block of point `t` holds rows `10000 t …` of the feature array. -/
theorem x_block_apply (c : Dev nD) (t : Fin cfg0.N) (y : S10000x16.Idx) (i : S200000x16.Idx)
    (h0 : (i 0).val = win0_2.index t (0 : Fin 2) * 10000 + (y 0).val) (h1 : (i 1).val = (y 1).val) :
    (iblk0 V c 0 t : Vec Ideal S10000x16 .f32) y = (V c main_arg0 : S200000x16.Idx → EReal) i := by
  obtain ⟨e0, e1, -, -, -, -⟩ := index_facts t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 16 + 1 * (y 1).val = (i 1).val; rw [e1, h1]; omega

/-- The weight block of every point is the whole weight matrix. -/
theorem w_block_apply (c : Dev nD) (t : Fin cfg0.N) (y : S16x32.Idx) :
    (iblk0 V c 1 t : Vec Ideal S16x32 .f32) y = (V c main_arg3 : S16x32.Idx → EReal) y := by
  obtain ⟨-, -, e2, e3, -, -⟩ := index_facts t
  unfold iblk0
  rw [View.read_apply]
  show V c main_arg3 _ = V c main_arg3 _
  congr 1
  funext a
  apply Fin.ext
  match a with
  | ⟨0, _⟩ => show win0_1.index t (0 : Fin 2) * 16 + 1 * (y 0).val = (y 0).val; rw [e2]; omega
  | ⟨1, _⟩ => show win0_1.index t (1 : Fin 2) * 32 + 1 * (y 1).val = (y 1).val; rw [e3]; omega

/-- The whole product at an entry. -/
theorem dense1_apply (x : Cert.Gcn.Mat 200000 16) (w : Cert.Gcn.Mat 16 32) (i : S200000x32.Idx) :
    Cert.Gcn.dense1 x w i = ∑ k : Fin 16, x (ix2 (i 0) k) * w (ix2 k (i 1)) := rfl

/-- What point `t` writes back is its block of the whole product. -/
theorem flushed_eq (c : Dev nD) (t : Fin cfg0.N) :
    (dat0 (F := Ideal) V c).flushed 2 t
      = ((cfg0.win 2).blk t).view.read (Elt Ideal) (Cert.Gcn.dense1 (V c main_arg0) (V c main_arg3)) := by
  show (cfg0.win 2).cut (grid0.coords t) ((dat0 V c).after 2 t) = _
  rw [after0_2]
  unfold out0_2
  rw [View.canon_unit_zero off_zero]
  simp only [View.ld_unit_zero (S := S10000x16) off_zero, View.ld_unit_zero (S := S16x32) off_zero]
  refine funext fun (j : S10000x32.Idx) => ?_
  obtain ⟨p, q, rfl⟩ : ∃ (p : Fin 10000) (q : Fin 32), j = ix2 p q := ⟨j 0, j 1, eq_ix2 j⟩
  refine (pay_apply _ _ p q).trans ?_
  refine Eq.trans ?_ (dense1_apply (V c main_arg0) (V c main_arg3) _).symm
  obtain ⟨-, -, -, -, e4, -⟩ := index_facts t
  have hq : (((cfg0.win 2).blk t).view.emb (ix2 p q)) 1 = q := Fin.ext (by
    show win0_2.index t (1 : Fin 2) * 32 + 1 * q.val = q.val; rw [e4]; omega)
  rw [hq]
  refine Finset.sum_congr rfl fun k _ => ?_
  refine congrArg₂ (· * ·) (x_block_apply V c t (ix2 p k) _ ?_ rfl) (w_block_apply V c t (ix2 k q))
  show win0_2.index t (0 : Fin 2) * 10000 + 1 * p.val = win0_2.index t (0 : Fin 2) * 10000 + p.val
  omega

/-- An index of the product is in point `t`'s block iff each coordinate is in the block's range on its axis. -/
theorem mem_block (t : Fin cfg0.N) (i : S200000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v33).slice (win0_2.rect t)).set ↔ _
  rw [View.set_slice_whole, Rect.mem_set_unit]
  exact Iff.rfl

/-- Row `r` of the product is in the block of point `r / 10000`. -/
theorem cover (i : S200000x32.Idx) :
    ∃ t : Fin cfg0.N, (cfg0.win 2).flush t = true ∧ i ∈ ((cfg0.win 2).blk t).view.set := by
  have hi0 : (i 0).val < 200000 := (i 0).isLt
  have hi1 : (i 1).val < 32 := (i 1).isLt
  have hN : cfg0.N = 20 := N_0
  have hlt : (i 0).val / 10000 < cfg0.N := by rw [hN]; omega
  obtain ⟨-, -, -, -, e4, e5⟩ := index_facts ⟨(i 0).val / 10000, hlt⟩
  refine ⟨⟨(i 0).val / 10000, hlt⟩, flush0_2 _, ?_⟩
  rw [mem_block]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e5]; show (i 0).val / 10000 * 10000 ≤ (i 0).val ∧ (i 0).val < (i 0).val / 10000 * 10000 + 10000; omega
  | ⟨1, _⟩ =>
    show win0_2.index ⟨(i 0).val / 10000, hlt⟩ (1 : Fin 2) * 32 ≤ (i 1).val ∧ (i 1).val < win0_2.index ⟨(i 0).val / 10000, hlt⟩ (1 : Fin 2) * 32 + 32
    rw [e4]; omega

/-- After its 20 points the first region's output array is the first layer's product of the node features and
    the weight matrix as the region finds them. -/
theorem value (c : Dev nD) :
    (Gen.dat0 (F := Ideal) V c).arrAt 2 cfg0.N = Cert.Gcn.dense1 (V c main_arg0) (V c main_arg3) :=
  (dat0 V c).arrAt_eq_of_cover 2 (Cert.Gcn.dense1 (V c main_arg0) (V c main_arg3)) (fun t _ => flushed_eq V c t) cover

end Cert.KernelIdeal.Region0

end
-- ==== Proof.Region1.lean ====
/-
  The second layer's fused stage, block by block: a block of 10000 aggregated rows gets its bias and is clamped at
  zero; each clamped row is scaled by its gate, the logistic function of its inner product with a weight column plus a
  scalar bias; the scaled rows are multiplied by the 32 × 32 weight matrix. The twenty row blocks tile the 200000 rows,
  so the array the stage leaves is one function of the arrays it finds, index by index.
-/
import proofs.«101608_j9878424781268_1_alg».proof.Proof.Gen.KernelIdeal.Frame
import proofs.«101608_j9878424781268_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-! ## The two matrix products, as sums over the contracted coordinate -/

theorem matmul_col_lhs0 (i : S10000x1.Idx) (r : dot_S10000x32_S32x1_S10000x1_1_0_0_1_n_n.contr.Idx) : (dot_S10000x32_S32x1_S10000x1_1_0_0_1_n_n.lhsIdx i r 0).val = (i 0).val := by
  unfold DotDims.lhsIdx
  rw [dif_neg (show ¬(0 : Fin S10000x32.rank) ∈ dot_S10000x32_S32x1_S10000x1_1_0_0_1_n_n.lhsBatch by decide), dif_pos (show (0 : Fin S10000x32.rank) ∈ dot_S10000x32_S32x1_S10000x1_1_0_0_1_n_n.lhsNonContracting by decide)]
  rfl
theorem matmul_col_lhs1 (i : S10000x1.Idx) (r : dot_S10000x32_S32x1_S10000x1_1_0_0_1_n_n.contr.Idx) : (dot_S10000x32_S32x1_S10000x1_1_0_0_1_n_n.lhsIdx i r 1).val = (r ⟨0, by decide⟩).val :=
  dot_S10000x32_S32x1_S10000x1_1_0_0_1_n_n.lhsIdx_val_of_single rfl i r
theorem matmul_col_rhs0 (i : S10000x1.Idx) (r : dot_S10000x32_S32x1_S10000x1_1_0_0_1_n_n.contr.Idx) : (dot_S10000x32_S32x1_S10000x1_1_0_0_1_n_n.rhsIdx i r 0).val = (r ⟨0, by decide⟩).val :=
  dot_S10000x32_S32x1_S10000x1_1_0_0_1_n_n.rhsIdx_val_of_single rfl i r
theorem matmul_col_rhs1 (i : S10000x1.Idx) (r : dot_S10000x32_S32x1_S10000x1_1_0_0_1_n_n.contr.Idx) : (dot_S10000x32_S32x1_S10000x1_1_0_0_1_n_n.rhsIdx i r 1).val = (i 1).val := by
  unfold DotDims.rhsIdx
  rw [dif_neg (show ¬(1 : Fin S32x1.rank) ∈ dot_S10000x32_S32x1_S10000x1_1_0_0_1_n_n.rhsBatch by decide), dif_pos (show (1 : Fin S32x1.rank) ∈ dot_S10000x32_S32x1_S10000x1_1_0_0_1_n_n.rhsNonContracting by decide)]
  rfl

/-- The product of a 10000 × 32 block with a 32 × 1 column, accumulated into zero, at row `p`. -/
theorem matmul_col (a : FVec Ideal S10000x32 .bf16) (b : FVec Ideal S32x1 .bf16) (p : Fin 10000) :
    matmul dot_S10000x32_S32x1_S10000x1_1_0_0_1_n_n none a b (constant (F := Ideal) S10000x1 .f32 0x00000000#32) (ix2 p (0 : Fin 1))
      = ∑ k : Fin 32, a (ix2 p k) * b (ix2 k (0 : Fin 1)) := by
  refine (Ideal.matmul_constant_zero_apply dot_S10000x32_S32x1_S10000x1_1_0_0_1_n_n none a b _).trans ?_
  rw [← Equiv.sum_comp (ValueIdx.contrEquiv1 dot_S10000x32_S32x1_S10000x1_1_0_0_1_n_n 32 rfl rfl).symm]
  refine Finset.sum_congr rfl fun k _ => ?_
  have hk := ValueIdx.contrEquiv1_symm_val dot_S10000x32_S32x1_S10000x1_1_0_0_1_n_n 32 rfl rfl k
  have el : dot_S10000x32_S32x1_S10000x1_1_0_0_1_n_n.lhsIdx (ix2 p (0 : Fin 1)) ((ValueIdx.contrEquiv1 dot_S10000x32_S32x1_S10000x1_1_0_0_1_n_n 32 rfl rfl).symm k) = ix2 p k := funext fun a => Fin.ext (by
    match a with
    | ⟨0, _⟩ => exact matmul_col_lhs0 _ _
    | ⟨1, _⟩ => exact (matmul_col_lhs1 _ _).trans hk)
  have er : dot_S10000x32_S32x1_S10000x1_1_0_0_1_n_n.rhsIdx (ix2 p (0 : Fin 1)) ((ValueIdx.contrEquiv1 dot_S10000x32_S32x1_S10000x1_1_0_0_1_n_n 32 rfl rfl).symm k) = ix2 k (0 : Fin 1) := funext fun a => Fin.ext (by
    match a with
    | ⟨0, _⟩ => exact (matmul_col_rhs0 _ _).trans hk
    | ⟨1, _⟩ => exact matmul_col_rhs1 _ _)
  rw [el, er]

theorem matmul_sq_lhs0 (i : S10000x32.Idx) (r : dot_S10000x32_S32x32_S10000x32_1_0_0_1_n_n.contr.Idx) : (dot_S10000x32_S32x32_S10000x32_1_0_0_1_n_n.lhsIdx i r 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem matmul_sq_lhs1 (i : S10000x32.Idx) (r : dot_S10000x32_S32x32_S10000x32_1_0_0_1_n_n.contr.Idx) : (dot_S10000x32_S32x32_S10000x32_1_0_0_1_n_n.lhsIdx i r 1).val = (r ⟨0, by decide⟩).val :=
  dot_S10000x32_S32x32_S10000x32_1_0_0_1_n_n.lhsIdx_val_of_single rfl i r
theorem matmul_sq_rhs0 (i : S10000x32.Idx) (r : dot_S10000x32_S32x32_S10000x32_1_0_0_1_n_n.contr.Idx) : (dot_S10000x32_S32x32_S10000x32_1_0_0_1_n_n.rhsIdx i r 0).val = (r ⟨0, by decide⟩).val :=
  dot_S10000x32_S32x32_S10000x32_1_0_0_1_n_n.rhsIdx_val_of_single rfl i r
theorem matmul_sq_rhs1 (i : S10000x32.Idx) (r : dot_S10000x32_S32x32_S10000x32_1_0_0_1_n_n.contr.Idx) : (dot_S10000x32_S32x32_S10000x32_1_0_0_1_n_n.rhsIdx i r 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The product of a 10000 × 32 block with the 32 × 32 matrix, accumulated into zero, at entry `(p, q)`. -/
theorem matmul_sq (a : FVec Ideal S10000x32 .bf16) (b : FVec Ideal S32x32 .bf16) (p : Fin 10000) (q : Fin 32) :
    matmul dot_S10000x32_S32x32_S10000x32_1_0_0_1_n_n none a b (constant (F := Ideal) S10000x32 .f32 0x00000000#32) (ix2 p q)
      = ∑ k : Fin 32, a (ix2 p k) * b (ix2 k q) := by
  refine (Ideal.matmul_constant_zero_apply dot_S10000x32_S32x32_S10000x32_1_0_0_1_n_n none a b _).trans ?_
  rw [← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx (ix2 p q) ((ValueIdx.contrEquiv1 dot_S10000x32_S32x32_S10000x32_1_0_0_1_n_n 32 rfl rfl).symm k) = ix2 p k := funext fun a => Fin.ext (by
    match a with
    | ⟨0, _⟩ => exact matmul_sq_lhs0 _ _
    | ⟨1, _⟩ => exact (matmul_sq_lhs1 _ _).trans hk)
  have er : dot_S10000x32_S32x32_S10000x32_1_0_0_1_n_n.rhsIdx (ix2 p q) ((ValueIdx.contrEquiv1 dot_S10000x32_S32x32_S10000x32_1_0_0_1_n_n 32 rfl rfl).symm k) = ix2 k q := funext fun a => Fin.ext (by
    match a with
    | ⟨0, _⟩ => exact (matmul_sq_rhs0 _ _).trans hk
    | ⟨1, _⟩ => exact matmul_sq_rhs1 _ _)
  rw [el, er]

/-! ## A gate column spread over the 32 lanes -/

/-- An `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an entry of the block -/

/-- A clamped entry of the block: the bias added, then the maximum with zero. -/
def clamp (x0 : Vec Ideal S10000x32 .f32) (x1 : Vec Ideal S1x32 .f32) (p : Fin 10000) (k : Fin 32) : EReal :=
  max (x0 (ix2 p k) + x1 (ix2 (0 : Fin 1) k)) (Ideal.ofBits .f32 0x00000000#32)

/-- The gate of row `p` of the block. -/
def gateRow (x0 : Vec Ideal S10000x32 .f32) (x1 : Vec Ideal S1x32 .f32) (x2 : Vec Ideal S32x1 .f32) (x3 : Vec Ideal S1x1 .f32)
    (p : Fin 10000) : EReal :=
  Ideal.logistic ((∑ k : Fin 32, clamp x0 x1 p k * x2 (ix2 k (0 : Fin 1))) + x3 (ix2 (0 : Fin 1) (0 : Fin 1)))

/-- The clamped block, as the body computes it, at `(p, k)`. -/
theorem clamp_apply (x0 : Vec Ideal S10000x32 .f32) (x1 : Vec Ideal S1x32 .f32) (p : Fin 10000) (k : Fin 32) :
    maximumf (addf (shapeCast S10000x32 x0 shapeCasts_S10000x32_S10000x32)
        (broadcastTo S10000x32 (shapeCast S1x32 x1 shapeCasts_S1x32_S1x32) broadcasts_S1x32_S10000x32))
      (broadcast S10000x32 (Scalar.ofBits (F := Ideal) .f32 0x00000000#32)) (ix2 p k) = clamp x0 x1 p k := by
  rw [shapeCast_self, shapeCast_self]
  refine (maximumf_apply _ _ _).trans ?_
  rw [addf_apply, broadcast_apply, broadcastTo_1b_ab_apply]
  rfl

/-- The body's payload at entry `(p, q)` of the block: the gated clamped row `p` against column `q` of the matrix. -/
theorem pay_apply (x0 : Vec Ideal S10000x32 .f32) (x1 : Vec Ideal S1x32 .f32) (x2 : Vec Ideal S32x1 .f32) (x3 : Vec Ideal S1x1 .f32)
    (x4 : Vec Ideal S32x32 .f32) (p : Fin 10000) (q : Fin 32) :
    k1_pay1 (F := Ideal) x0 x1 x2 x3 x4 (ix2 p q)
      = ∑ k : Fin 32, (clamp x0 x1 p k * gateRow x0 x1 x2 x3 p) * x4 (ix2 k q) := by
  unfold k1_pay1
  refine (matmul_sq _ _ p q).trans ?_
  refine Finset.sum_congr rfl fun k _ => ?_
  rw [truncf_apply, truncf_apply, mulf_apply, clamp_apply, broadcastTo_a1_ab_apply]
  refine congrArg (fun g => clamp x0 x1 p k * g * x4 (ix2 k q)) ?_
  show Ideal.logistic _ = _
  unfold gateRow
  refine congrArg Ideal.logistic ?_
  rw [addf_apply, shapeCast_self x3, broadcastTo_1b_ab_apply]
  refine congrArg (· + x3 (ix2 (0 : Fin 1) (0 : Fin 1))) ?_
  refine (matmul_col _ _ p).trans ?_
  refine Finset.sum_congr rfl fun k' _ => ?_
  rw [truncf_apply, truncf_apply, clamp_apply]

/-! ## Where the blocks sit in the arrays -/

section Blocks

variable (V : (c : Dev nD) → (b : Ref sig .tc) → Buf (Elt Ideal) ((c : Thread nD τ).loc b))

theorem zero_off : (![0, 0] : Fin 2 → Nat) = fun _ => 0 := funext fun a => by fin_cases a <;> rfl

/-- The block indices over the grid: the row blocks of the input and of the output move together, point `t` at
    block row `t`; every other block index is zero. -/
theorem idx_facts : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `t · 10000 + p` of the array. -/
def row (t : Fin cfg1.N) (p : Fin 10000) : Fin 200000 :=
  ⟨t.val * 10000 + p.val, by have h : t.val < 20 := N_1 ▸ t.isLt; have := p.isLt; omega⟩

/-- Entry `(p, q)` of the output's block `t` is entry `(row t p, q)` of the output array. -/
theorem out_emb (t : Fin cfg1.N) (p : Fin 10000) (q : Fin 32) :
    ((cfg1.win 5).blk t).view.emb (ix2 p q) = (ix2 (row t p) q : S200000x32.Idx) := by
  obtain ⟨-, -, -, -, -, -, -, -, -, -, e5, e5'⟩ := idx_facts t
  funext a; apply Fin.ext
  match a with
  | ⟨0, _⟩ => show win1_5.index t (0 : Fin 2) * 10000 + 1 * p.val = t.val * 10000 + p.val; rw [e5]; omega
  | ⟨1, _⟩ => show win1_5.index t (1 : Fin 2) * 32 + 1 * q.val = q.val; rw [e5']; omega

/-- The aggregated rows' block `t` reads rows `t · 10000 …` of its array. -/
theorem blk0_read (c : Dev nD) (t : Fin cfg1.N) (p : Fin 10000) (k : Fin 32) :
    iblk1 V c 0 t (ix2 p k) = (V c main_v46 : S200000x32.Idx → EReal) (ix2 (row t p) k) := by
  obtain ⟨e0, e0', -⟩ := idx_facts t
  obtain ⟨-, -, -, -, -, -, -, -, -, -, e5, -⟩ := idx_facts t
  show V c main_v46 (((cfg1.win 0).blk t).view.emb (ix2 p k)) = V c main_v46 (ix2 (row t p) k)
  refine congrArg (V c main_v46) (funext fun a => Fin.ext ?_)
  match a with
  | ⟨0, _⟩ => show win1_0.index t (0 : Fin 2) * 10000 + 1 * p.val = t.val * 10000 + p.val; rw [e0, e5]; omega
  | ⟨1, _⟩ => show win1_0.index t (1 : Fin 2) * 32 + 1 * k.val = k.val; rw [e0']; omega

/-- The bias row's block is the whole row at every point. -/
theorem blk1_read (c : Dev nD) (t : Fin cfg1.N) : iblk1 V c 1 t = (V c main_v29 : S1x32.Idx → EReal) := by
  obtain ⟨-, -, e, e', -⟩ := idx_facts t
  funext y
  show V c main_v29 (((cfg1.win 1).blk t).view.emb y) = V c main_v29 y
  refine congrArg (V c main_v29) (funext fun a => Fin.ext ?_)
  match a with
  | ⟨0, _⟩ => show win1_1.index t (0 : Fin 2) * 1 + 1 * (y 0).val = (y 0).val; rw [e]; omega
  | ⟨1, _⟩ => show win1_1.index t (1 : Fin 2) * 32 + 1 * (y 1).val = (y 1).val; rw [e']; omega

/-- The gate's weight column's block is the whole column at every point. -/
theorem blk2_read (c : Dev nD) (t : Fin cfg1.N) : iblk1 V c 2 t = (V c main_arg5 : S32x1.Idx → EReal) := by
  obtain ⟨-, -, -, -, e, e', -⟩ := idx_facts t
  funext y
  show V c main_arg5 (((cfg1.win 2).blk t).view.emb y) = V c main_arg5 y
  refine congrArg (V c main_arg5) (funext fun a => Fin.ext ?_)
  match a with
  | ⟨0, _⟩ => show win1_2.index t (0 : Fin 2) * 32 + 1 * (y 0).val = (y 0).val; rw [e]; omega
  | ⟨1, _⟩ => show win1_2.index t (1 : Fin 2) * 1 + 1 * (y 1).val = (y 1).val; rw [e']; omega

/-- The gate's bias's block is the whole 1 × 1 array at every point. -/
theorem blk3_read (c : Dev nD) (t : Fin cfg1.N) : iblk1 V c 3 t = (V c main_v30 : S1x1.Idx → EReal) := by
  obtain ⟨-, -, -, -, -, -, e, e', -⟩ := idx_facts t
  funext y
  show V c main_v30 (((cfg1.win 3).blk t).view.emb y) = V c main_v30 y
  refine congrArg (V c main_v30) (funext fun a => Fin.ext ?_)
  match a with
  | ⟨0, _⟩ => show win1_3.index t (0 : Fin 2) * 1 + 1 * (y 0).val = (y 0).val; rw [e]; omega
  | ⟨1, _⟩ => show win1_3.index t (1 : Fin 2) * 1 + 1 * (y 1).val = (y 1).val; rw [e']; omega

/-- The weight matrix's block is the whole matrix at every point. -/
theorem blk4_read (c : Dev nD) (t : Fin cfg1.N) : iblk1 V c 4 t = (V c main_arg7 : S32x32.Idx → EReal) := by
  obtain ⟨-, -, -, -, -, -, -, -, e, e', -⟩ := idx_facts t
  funext y
  show V c main_arg7 (((cfg1.win 4).blk t).view.emb y) = V c main_arg7 y
  refine congrArg (V c main_arg7) (funext fun a => Fin.ext ?_)
  match a with
  | ⟨0, _⟩ => show win1_4.index t (0 : Fin 2) * 32 + 1 * (y 0).val = (y 0).val; rw [e]; omega
  | ⟨1, _⟩ => show win1_4.index t (1 : Fin 2) * 32 + 1 * (y 1).val = (y 1).val; rw [e']; omega

/-- An index of the output array is in point `t`'s block iff each coordinate is in the block's range on its axis. -/
theorem mem_blk (t : Fin cfg1.N) (i : S200000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v47).slice (win1_5.rect t)).set ↔ _
  rw [View.set_slice_whole, Rect.mem_set_unit]
  exact Iff.rfl

/-- The twenty row blocks tile the output array: row `r` is in block `r / 10000`. -/
theorem cover (i : S200000x32.Idx) :
    ∃ t : Fin cfg1.N, (cfg1.win 5).flush t = true ∧ i ∈ ((cfg1.win 5).blk t).view.set := by
  have hi0 : (i 0).val < 200000 := (i 0).isLt
  have hi1 : (i 1).val < 32 := (i 1).isLt
  have ht : (i 0).val / 10000 < cfg1.N := by rw [show cfg1.N = 20 from N_1]; omega
  obtain ⟨-, -, -, -, -, -, -, -, -, -, e5, e5'⟩ := idx_facts ⟨(i 0).val / 10000, ht⟩
  refine ⟨⟨(i 0).val / 10000, ht⟩, flush1_5 _, ?_⟩
  rw [mem_blk]
  intro a
  match a with
  | ⟨0, _⟩ =>
    show win1_5.index ⟨(i 0).val / 10000, ht⟩ (0 : Fin 2) * 10000 ≤ (i 0).val ∧ (i 0).val < win1_5.index ⟨(i 0).val / 10000, ht⟩ (0 : Fin 2) * 10000 + 10000
    rw [e5]
    show (i 0).val / 10000 * 10000 ≤ (i 0).val ∧ (i 0).val < (i 0).val / 10000 * 10000 + 10000
    omega
  | ⟨1, _⟩ =>
    show win1_5.index ⟨(i 0).val / 10000, ht⟩ (1 : Fin 2) * 32 ≤ (i 1).val ∧ (i 1).val < win1_5.index ⟨(i 0).val / 10000, ht⟩ (1 : Fin 2) * 32 + 32
    rw [e5']
    omega

/-! ## What a point writes back, and the array after the twenty points -/

/-- A clamped entry of block `t` is the clamped entry of the array at the block's row. -/
theorem clamp_blk (c : Dev nD) (t : Fin cfg1.N) (p : Fin 10000) (k : Fin 32) :
    clamp (iblk1 V c 0 t) (iblk1 V c 1 t) p k = Cert.Gcn.relu (V c main_v46) (V c main_v29) (row t p) k := by
  unfold clamp Cert.Gcn.relu
  rw [blk0_read, blk1_read]

/-- The gate of row `p` of block `t` is the gate of the array's row. -/
theorem gate_blk (c : Dev nD) (t : Fin cfg1.N) (p : Fin 10000) :
    gateRow (iblk1 V c 0 t) (iblk1 V c 1 t) (iblk1 V c 2 t) (iblk1 V c 3 t) p
      = Cert.Gcn.gate (V c main_v46) (V c main_v29) (V c main_arg5) (V c main_v30) (row t p) := by
  unfold gateRow Cert.Gcn.gate
  refine congrArg Ideal.logistic ?_
  rw [blk2_read, blk3_read]
  refine congrArg (· + _) (Finset.sum_congr rfl fun k _ => ?_)
  rw [clamp_blk]

/-- What point `t` writes back is block `t` of the second layer's product of the arrays the stage finds. -/
theorem flushed_eq (c : Dev nD) (t : Fin cfg1.N) :
    (dat1 (F := Ideal) V c).flushed 5 t = ((cfg1.win 5).blk t).view.read (Elt Ideal)
      (Cert.Gcn.dense2 (V c main_v46) (V c main_v29) (V c main_arg5) (V c main_v30) (V c main_arg7)) := by
  show (cfg1.win 5).cut (grid1.coords t) ((dat1 V c).after 5 t) = _
  rw [after1_5]
  unfold out1_5
  rw [View.canon_unit_zero zero_off]
  simp only [View.ld_unit_zero (S := S10000x32) zero_off, View.ld_unit_zero (S := S1x32) zero_off,
    View.ld_unit_zero (S := S32x1) zero_off, View.ld_unit_zero (S := S1x1) zero_off, View.ld_unit_zero (S := S32x32) zero_off]
  funext j
  obtain ⟨p, q, rfl⟩ : ∃ (p : Fin 10000) (q : Fin 32), j = ix2 p q := ⟨j 0, j 1, eq_ix2 j⟩
  refine (pay_apply _ _ _ _ _ p q).trans ?_
  show _ = Cert.Gcn.dense2 (V c main_v46) (V c main_v29) (V c main_arg5) (V c main_v30) (V c main_arg7) (((cfg1.win 5).blk t).view.emb (ix2 p q))
  rw [out_emb]
  unfold Cert.Gcn.dense2
  refine Finset.sum_congr rfl fun k _ => ?_
  rw [clamp_blk, gate_blk, blk4_read]

/-- The output array after the stage's twenty points: the second layer's product of the gated clamped rows, as one
    function of the arrays the stage finds. -/
theorem value (c : Dev nD) :
    (dat1 (F := Ideal) V c).arrAt 5 cfg1.N
      = Cert.Gcn.dense2 (V c main_v46) (V c main_v29) (V c main_arg5) (V c main_v30) (V c main_arg7) :=
  (dat1 (F := Ideal) V c).arrAt_eq_of_cover 5
    (Cert.Gcn.dense2 (V c main_v46) (V c main_v29) (V c main_arg5) (V c main_v30) (V c main_arg7))
    (fun t _ => flushed_eq V c t) cover

end Blocks

end Cert.KernelIdeal.Region1

end
-- ==== Proof.Region2.lean ====
/-
  The third region: a grid of 20 points, point `t` taking rows `10000 t … 10000 t + 9999` of the aggregated
  array, adding the bias row to each, clamping at zero from below and multiplying by the whole 32 × 32 weight
  matrix. Entry `(p, q)` of a block product is the sum over the 32 shared coordinates; the blocks tile the rows,
  so the output array after the 20 points is the whole product of the clamped rows.
-/
import proofs.«101608_j9878424781268_1_alg».proof.Proof.Gen.KernelIdeal.Frame
import proofs.«101608_j9878424781268_1_alg».proof.Proof.Spec
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

/-! ## The block product at an entry -/

/-- On the rows' axis the left operand is read at the output's row. -/
theorem lhs_row (i : S10000x32.Idx) (r : dot_S10000x32_S32x32_S10000x32_1_0_0_1_n_n.contr.Idx) :
    (dot_S10000x32_S32x32_S10000x32_1_0_0_1_n_n.lhsIdx i r 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl

/-- On the columns' axis the right operand is read at the output's column. -/
theorem rhs_col (i : S10000x32.Idx) (r : dot_S10000x32_S32x32_S10000x32_1_0_0_1_n_n.contr.Idx) :
    (dot_S10000x32_S32x32_S10000x32_1_0_0_1_n_n.rhsIdx i r 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The clamped row of a block at an entry: the bias row is added to every row, then the clamp at zero. -/
theorem clamp_apply (x : Vec Ideal S10000x32 .f32) (b : Vec Ideal S1x32 .f32) (p : Fin 10000) (k : Fin 32) :
    maximumf (addf (shapeCast S10000x32 x shapeCasts_S10000x32_S10000x32)
        (broadcastTo S10000x32 (shapeCast S1x32 b shapeCasts_S1x32_S1x32) broadcasts_S1x32_S10000x32))
      (broadcast S10000x32 (Scalar.ofBits (F := Ideal) .f32 0x00000000#32)) (ix2 p k)
      = max (x (ix2 p k) + b (ix2 (0 : Fin 1) k)) (Ideal.ofBits .f32 0x00000000#32) := by
  rw [shapeCast_self, shapeCast_self]
  show max (x (ix2 p k) + broadcastTo S10000x32 b broadcasts_S1x32_S10000x32 (ix2 p k)) _ = _
  rw [broadcastTo_1b_ab_apply]
  rfl

/-- The block product at an entry: the sum over the 32 shared coordinates of the clamped row times the weights. -/
theorem pay_apply (x : Vec Ideal S10000x32 .f32) (b : Vec Ideal S1x32 .f32) (w : Vec Ideal S32x32 .f32) (p : Fin 10000) (q : Fin 32) :
    k2_pay1 (F := Ideal) x b w (ix2 p q)
      = ∑ k : Fin 32, max (x (ix2 p k) + b (ix2 (0 : Fin 1) k)) (Ideal.ofBits .f32 0x00000000#32) * w (ix2 k q) := by
  unfold k2_pay1
  refine (Ideal.matmul_constant_zero_apply dot_S10000x32_S32x32_S10000x32_1_0_0_1_n_n none _ _ (ix2 p q)).trans ?_
  rw [← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p q) ((contrEquiv1 dot_S10000x32_S32x32_S10000x32_1_0_0_1_n_n 32 rfl rfl).symm k) = ix2 p k := funext fun a => Fin.ext (by
    match a with
    | ⟨0, _⟩ => exact lhs_row _ _
    | ⟨1, _⟩ => exact (dot_S10000x32_S32x32_S10000x32_1_0_0_1_n_n.lhsIdx_val_of_single rfl _ _).trans hk)
  have er : dot_S10000x32_S32x32_S10000x32_1_0_0_1_n_n.rhsIdx (ix2 p q) ((contrEquiv1 dot_S10000x32_S32x32_S10000x32_1_0_0_1_n_n 32 rfl rfl).symm k) = ix2 k q := funext fun a => Fin.ext (by
    match a with
    | ⟨0, _⟩ => exact (dot_S10000x32_S32x32_S10000x32_1_0_0_1_n_n.rhsIdx_val_of_single rfl _ _).trans hk
    | ⟨1, _⟩ => exact rhs_col _ _)
  rw [el, er]
  exact congrArg (· * w (ix2 k q)) (clamp_apply x b p k)

/-! ## From blocks to the array -/

variable (V : (c : Dev nD) → (b : Ref sig .tc) → Buf (Elt Ideal) ((c : Thread nD τ).loc b))

theorem off_zero : (![0, 0] : Fin 2 → Nat) = fun _ => 0 := funext fun a => by fin_cases a <;> rfl

/-- The block index maps over the 20 grid points: the aggregated rows and the product move together along the
    rows, point `t` at row block `t`; every other block coordinate is 0. -/
theorem index_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) = t.val :=
  (by decide +kernel : ∀ t : Fin grid2.N, _)

/-- The block of aggregated rows of point `t` holds rows `10000 t …` of the aggregated array. -/
theorem a_block_apply (c : Dev nD) (t : Fin cfg2.N) (y : S10000x32.Idx) (i : S200000x32.Idx)
    (h0 : (i 0).val = win2_3.index t (0 : Fin 2) * 10000 + (y 0).val) (h1 : (i 1).val = (y 1).val) :
    (iblk2 V c 0 t : Vec Ideal S10000x32 .f32) y = (V c main_v60 : S200000x32.Idx → EReal) i := by
  obtain ⟨e0, e1, -, -, -, -, -, -⟩ := index_facts t
  unfold iblk2
  rw [View.read_apply]
  show V c main_v60 _ = V c main_v60 _
  congr 1
  funext a
  apply Fin.ext
  match a with
  | ⟨0, _⟩ => show win2_0.index t (0 : Fin 2) * 10000 + 1 * (y 0).val = (i 0).val; rw [e0, h0]; omega
  | ⟨1, _⟩ => show win2_0.index t (1 : Fin 2) * 32 + 1 * (y 1).val = (i 1).val; rw [e1, h1]; omega

/-- The bias block of every point is the whole bias row. -/
theorem b_block_apply (c : Dev nD) (t : Fin cfg2.N) (y : S1x32.Idx) :
    (iblk2 V c 1 t : Vec Ideal S1x32 .f32) y = (V c main_v31 : S1x32.Idx → EReal) y := by
  obtain ⟨-, -, e2, e3, -, -, -, -⟩ := index_facts t
  unfold iblk2
  rw [View.read_apply]
  show V c main_v31 _ = V c main_v31 _
  congr 1
  funext a
  apply Fin.ext
  match a with
  | ⟨0, _⟩ => show win2_1.index t (0 : Fin 2) * 1 + 1 * (y 0).val = (y 0).val; rw [e2]; omega
  | ⟨1, _⟩ => show win2_1.index t (1 : Fin 2) * 32 + 1 * (y 1).val = (y 1).val; rw [e3]; omega

/-- The weight block of every point is the whole weight matrix. -/
theorem w_block_apply (c : Dev nD) (t : Fin cfg2.N) (y : S32x32.Idx) :
    (iblk2 V c 2 t : Vec Ideal S32x32 .f32) y = (V c main_arg9 : S32x32.Idx → EReal) y := by
  obtain ⟨-, -, -, -, e4, e5, -, -⟩ := index_facts t
  unfold iblk2
  rw [View.read_apply]
  show V c main_arg9 _ = V c main_arg9 _
  congr 1
  funext a
  apply Fin.ext
  match a with
  | ⟨0, _⟩ => show win2_2.index t (0 : Fin 2) * 32 + 1 * (y 0).val = (y 0).val; rw [e4]; omega
  | ⟨1, _⟩ => show win2_2.index t (1 : Fin 2) * 32 + 1 * (y 1).val = (y 1).val; rw [e5]; omega

/-- The whole product at an entry. -/
theorem dense3_apply (a : Cert.Gcn.Mat 200000 32) (b : Cert.Gcn.Mat 1 32) (w : Cert.Gcn.Mat 32 32) (i : S200000x32.Idx) :
    Cert.Gcn.dense3 a b w i
      = ∑ k : Fin 32, max (a (ix2 (i 0) k) + b (ix2 (0 : Fin 1) k)) (Ideal.ofBits .f32 0x00000000#32) * w (ix2 k (i 1)) := rfl

/-- What point `t` writes back is its block of the whole product. -/
theorem flushed_eq (c : Dev nD) (t : Fin cfg2.N) :
    (dat2 (F := Ideal) V c).flushed 3 t
      = ((cfg2.win 3).blk t).view.read (Elt Ideal) (Cert.Gcn.dense3 (V c main_v60) (V c main_v31) (V c main_arg9)) := by
  show (cfg2.win 3).cut (grid2.coords t) ((dat2 V c).after 3 t) = _
  rw [after2_3]
  unfold out2_3
  rw [View.canon_unit_zero off_zero]
  simp only [View.ld_unit_zero (S := S10000x32) off_zero, View.ld_unit_zero (S := S1x32) off_zero, View.ld_unit_zero (S := S32x32) off_zero]
  refine funext fun (j : S10000x32.Idx) => ?_
  obtain ⟨p, q, rfl⟩ : ∃ (p : Fin 10000) (q : Fin 32), j = ix2 p q := ⟨j 0, j 1, eq_ix2 j⟩
  refine (pay_apply _ _ _ p q).trans ?_
  refine Eq.trans ?_ (dense3_apply (V c main_v60) (V c main_v31) (V c main_arg9) _).symm
  obtain ⟨-, -, -, -, -, -, e6, -⟩ := index_facts t
  have hq : (((cfg2.win 3).blk t).view.emb (ix2 p q)) 1 = q := Fin.ext (by
    show win2_3.index t (1 : Fin 2) * 32 + 1 * q.val = q.val; rw [e6]; omega)
  rw [hq]
  refine Finset.sum_congr rfl fun k _ => ?_
  refine congrArg₂ (· * ·) (congrArg₂ max (congrArg₂ (· + ·) (a_block_apply V c t (ix2 p k) _ ?_ rfl) (b_block_apply V c t (ix2 (0 : Fin 1) k))) rfl) (w_block_apply V c t (ix2 k q))
  show win2_3.index t (0 : Fin 2) * 10000 + 1 * p.val = win2_3.index t (0 : Fin 2) * 10000 + p.val
  omega

/-- An index of the product is in point `t`'s block iff each coordinate is in the block's range on its axis. -/
theorem mem_block (t : Fin cfg2.N) (i : S200000x32.Idx) :
    i ∈ ((cfg2.win 3).blk t).view.set ↔ ∀ a : Fin 2, win2_3.index t a * S10000x32.size a ≤ (i a).val ∧ (i a).val < win2_3.index t a * S10000x32.size a + S10000x32.size a := by
  show i ∈ ((View.whole main_v61).slice (win2_3.rect t)).set ↔ _
  rw [View.set_slice_whole, Rect.mem_set_unit]
  exact Iff.rfl

/-- Row `r` of the product is in the block of point `r / 10000`. -/
theorem cover (i : S200000x32.Idx) :
    ∃ t : Fin cfg2.N, (cfg2.win 3).flush t = true ∧ i ∈ ((cfg2.win 3).blk t).view.set := by
  have hi0 : (i 0).val < 200000 := (i 0).isLt
  have hi1 : (i 1).val < 32 := (i 1).isLt
  have hN : cfg2.N = 20 := N_2
  have hlt : (i 0).val / 10000 < cfg2.N := by rw [hN]; omega
  obtain ⟨-, -, -, -, -, -, e6, e7⟩ := index_facts ⟨(i 0).val / 10000, hlt⟩
  refine ⟨⟨(i 0).val / 10000, hlt⟩, flush2_3 _, ?_⟩
  rw [mem_block]
  intro a
  match a with
  | ⟨0, _⟩ =>
    show win2_3.index ⟨(i 0).val / 10000, hlt⟩ (0 : Fin 2) * 10000 ≤ (i 0).val ∧ (i 0).val < win2_3.index ⟨(i 0).val / 10000, hlt⟩ (0 : Fin 2) * 10000 + 10000
    rw [e7]; show (i 0).val / 10000 * 10000 ≤ (i 0).val ∧ (i 0).val < (i 0).val / 10000 * 10000 + 10000; omega
  | ⟨1, _⟩ =>
    show win2_3.index ⟨(i 0).val / 10000, hlt⟩ (1 : Fin 2) * 32 ≤ (i 1).val ∧ (i 1).val < win2_3.index ⟨(i 0).val / 10000, hlt⟩ (1 : Fin 2) * 32 + 32
    rw [e6]; omega

/-- After its 20 points the third region's output array is the third layer's product: the aggregated rows with
    their bias, clamped at zero, times the weight matrix, all as the region finds them. -/
theorem value (c : Dev nD) :
    (Gen.dat2 (F := Ideal) V c).arrAt 3 cfg2.N = Cert.Gcn.dense3 (V c main_v60) (V c main_v31) (V c main_arg9) :=
  (dat2 V c).arrAt_eq_of_cover 3 (Cert.Gcn.dense3 (V c main_v60) (V c main_v31) (V c main_arg9)) (fun t _ => flushed_eq V c t) cover

end Cert.KernelIdeal.Region2

end
-- ==== Proof.KChainB.lean ====
/-
  The idealized kernel program's value, stage by stage, as the reference's own stages of the same arguments. Each
  region's output array is one whole-array function of its inputs (the row-blocked products of `Spec`), which the
  reference's dense stage also is; each stretch of host operations between the regions gathers the rows at the
  sources, scales them by the per-edge coefficient and adds them up at the destinations, by the operations the
  reference applies; and after the third aggregation both add the bias row, pool per graph, and run the same small
  head and row softmax. The third bias reaches the sum as a row by a change of layout in the kernel program and by a
  broadcast in the reference: the same row.
-/
import proofs.«101608_j9878424781268_1_alg».proof.Proof.KChainA
import proofs.«101608_j9878424781268_1_alg».proof.Proof.RefChain
import proofs.«101608_j9878424781268_1_alg».proof.Proof.RefDense
import proofs.«101608_j9878424781268_1_alg».proof.Proof.Region0
import proofs.«101608_j9878424781268_1_alg».proof.Proof.Region1
import proofs.«101608_j9878424781268_1_alg».proof.Proof.Region2

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- A stretch of host operations leaves a buffer none of them writes as it was. -/
local macro "host_keeps" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- The first region's output is the reference's first product. -/
theorem s33 : W2 m ρ c (Proc.devRef .tc main_v33) = val_main_v4 (F := Ideal) (m ((c.tc : Thread nD τ).loc main_arg0)) (m ((c.tc : Thread nD τ).loc main_arg3)) := by
  refine (W2_arr m ρ c 2).trans ((Cert.KernelIdeal.Region0.value (V1 m ρ) c).trans ?_)
  rw [show V1 m ρ c main_arg0 = (m ((c.tc : Thread nD τ).loc main_arg0)) from W1_arg0 m ρ c, show V1 m ρ c main_arg3 = (m ((c.tc : Thread nD τ).loc main_arg3)) from W1_arg3 m ρ c]
  exact (Cert.ReferenceIdeal.Dense.first _ _).symm

/-- The first aggregation. -/
theorem s46 : W3 m ρ c (Proc.devRef .tc main_v46) = val_main_v42 (F := Ideal) (m ((c.tc : Thread nD τ).loc main_arg0)) (m ((c.tc : Thread nD τ).loc main_arg1)) (m ((c.tc : Thread nD τ).loc main_arg3)) := by
  show StableHlo.after hostOps1 (W2 m ρ c) (Proc.devRef .tc main_v46) = _
  simp only [hostOps1]
  after_results_simp
  rw [s33 m ρ c, keep2_v5 m ρ c, keep2_v6 m ρ c, keep2_v28 m ρ c, W1_v5 m ρ c, W1_v6 m ρ c, W1_v28 m ρ c]
  simp only [val_main_v42, val_main_v40, val_main_cst_7, val_main_v41, val_main_v39, val_main_v37, val_main_v36, val_main_v35, val_main_v32, val_main_v31, val_main_c_5, val_main_v34, val_main_v33, val_main_c_6, val_main_v38, val_main_v30]
  rfl

/-- The second region's output is the reference's second product. -/
theorem s47 : W4 m ρ c (Proc.devRef .tc main_v47) = val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ((Cert.KernelIdeal.Region1.value (V3 m ρ) c).trans ?_)
  rw [show V3 m ρ c main_v46 = val_main_v42 (F := Ideal) (m ((c.tc : Thread nD τ).loc main_arg0)) (m ((c.tc : Thread nD τ).loc main_arg1)) (m ((c.tc : Thread nD τ).loc main_arg3)) from s46 m ρ c,
    show V3 m ρ c main_arg5 = (m ((c.tc : Thread nD τ).loc main_arg5)) from (keep3_arg5 m ρ c).trans (W1_arg5 m ρ c),
    show V3 m ρ c main_arg7 = (m ((c.tc : Thread nD τ).loc main_arg7)) from (keep3_arg7 m ρ c).trans (W1_arg7 m ρ c)]
  exact (Cert.ReferenceIdeal.Dense.second _ _ _ _ _ _ _ _ _
    (fun k => (congrFun (keep3_v29 m ρ c) (ix2 0 k)).trans (W1_v29 m ρ c k))
    ((congrFun (keep3_v30 m ρ c) (ix2 0 0)).trans (W1_v30 m ρ c))).symm

/-- The second aggregation. -/
theorem s60 : W5 m ρ c (Proc.devRef .tc main_v60) = val_main_v97 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps2 (W4 m ρ c) (Proc.devRef .tc main_v60) = _
  simp only [hostOps2]
  after_results_simp
  rw [s47 m ρ c, keep4_v5 m ρ c, keep4_v6 m ρ c, keep4_v28 m ρ c, W1_v5 m ρ c, W1_v6 m ρ c, W1_v28 m ρ c]
  simp only [val_main_v97, val_main_v95, val_main_cst_19, val_main_v96, val_main_v94, val_main_v92, val_main_v91, val_main_v90, val_main_v87, val_main_v86, val_main_c_17, val_main_v89, val_main_v88, val_main_c_18, val_main_v93, val_main_v85,
    Cert.ReferenceIdeal.Copies.src2, Cert.ReferenceIdeal.Copies.dst2, Cert.ReferenceIdeal.Copies.coef2]
  rfl

/-- The third region's output is the reference's third product. -/
theorem s61 : W6 m ρ c (Proc.devRef .tc main_v61) = val_main_v102 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W6_arr m ρ c 3).trans ((Cert.KernelIdeal.Region2.value (V5 m ρ) c).trans ?_)
  rw [show V5 m ρ c main_v60 = val_main_v97 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) from s60 m ρ c,
    show V5 m ρ c main_arg9 = (m ((c.tc : Thread nD τ).loc main_arg9)) from (keep5_arg9 m ρ c).trans (W1_arg9 m ρ c)]
  exact (Cert.ReferenceIdeal.Dense.third _ _ _ _ _ _ _ _ _ _
    (fun k => (congrFun (keep5_v31 m ρ c) (ix2 0 k)).trans (W1_v31 m ρ c k))).symm

set_option maxHeartbeats 4000000 in
/-- The third aggregation, the bias, the pooling per graph, the head and the row softmax: the result. -/
theorem s113 : W11 m ρ c (Proc.devRef .tc main_v113) = val_main_v180 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  show StableHlo.after hostOps3_4 (StableHlo.after hostOps3_3 (StableHlo.after hostOps3_2 (StableHlo.after hostOps3_1
    (StableHlo.after hostOps3 (W6 m ρ c))))) (Proc.devRef .tc main_v113) = _
  simp only [hostOps3_4, hostOps3_3, hostOps3_2, hostOps3_1, hostOps3]
  after_results_simp
  simp only [s61 m ρ c, keep6_v5 m ρ c, keep6_v6 m ρ c, keep6_v28 m ρ c, keep6_v32 m ρ c, W1_v5 m ρ c, W1_v6 m ρ c, W1_v28 m ρ c,
    W1_v32 m ρ c,
    (keep6_arg2 m ρ c).trans (W1_arg2 m ρ c),
    (keep6_arg11 m ρ c).trans (W1_arg11 m ρ c),
    (keep6_arg12 m ρ c).trans (W1_arg12 m ρ c),
    (keep6_arg13 m ρ c).trans (W1_arg13 m ρ c),
    (keep6_arg14 m ρ c).trans (W1_arg14 m ρ c),
    (keep6_arg15 m ρ c).trans (W1_arg15 m ρ c),
    (keep6_arg16 m ρ c).trans (W1_arg16 m ρ c)]
  simp only [val_main_v180, val_main_v176, val_main_v175, val_main_v169, val_main_v166, val_main_v165, val_main_v164, val_main_v161, val_main_v160, val_main_v159, val_main_v156, val_main_v155, val_main_v146, val_main_v144, val_main_cst_30, val_main_v145, val_main_v143, val_main_v140, val_main_v138, val_main_cst_29, val_main_v139, val_main_v137, val_main_v135, val_main_v134, val_main_v133, val_main_v130, val_main_v129, val_main_c_27, val_main_v132, val_main_v131, val_main_c_28, val_main_v136, val_main_v128, val_main_v142, val_main_v154, val_main_v153, val_main_v152, val_main_v150, val_main_v148, val_main_cst_32, val_main_v149, val_main_v147, val_main_cst_31, val_main_v151, val_main_cst_33, val_main_v158, val_main_v157, val_main_call2_v0, val_main_call2_cst, val_main_v163, val_main_v162, val_main_call3_v0, val_main_call3_cst, val_main_v168, val_main_v167, val_main_v174, val_main_v173, val_main_v172, val_main_v171, val_main_cst_35, val_main_v170, val_main_cst_34, val_main_v179, val_main_v178, val_main_v177, val_main_cst_36,
    Cert.ReferenceIdeal.Copies.src3, Cert.ReferenceIdeal.Copies.dst3, Cert.ReferenceIdeal.Copies.coef3]
  rfl

end Cert.KernelIdeal.Chain

end
-- ==== Proof.lean ====
/-
  The kernel — three graph-convolution layers whose dense per-node products run in row-blocked regions, the
  gather-scale-scatter aggregation, the per-graph mean pooling, a small head and a row softmax around them on the host
  — against the reference that computes the same network with whole-array products. Over the extended reals the two
  are one function of the arguments: a region's row block of a product is the same sum over the contracted axis as the
  whole-array product's row; the logistic gate is `1 / (1 + exp (−t))` on both sides; the edge lists and the
  normalisation coefficient, formed once by the kernel program and three times by the reference, are the same terms of
  the edge array; and every other host operation is shared. No law that needs finite operands is used.
  The three frames are the generated ones (the reference's is its generated run with the result dropped); the ideal
  pass rewrote nothing, so the kernel program read over the extended reals is its own idealization.
-/
import proofs.«101608_j9878424781268_1_alg».proof.Defs
import proofs.«101608_j9878424781268_1_alg».proof.Proof.Gen.Kernel
import proofs.«101608_j9878424781268_1_alg».proof.Proof.Gen.Kernel.Frame
import proofs.«101608_j9878424781268_1_alg».proof.Proof.Gen.KernelIdeal
import proofs.«101608_j9878424781268_1_alg».proof.Proof.Gen.KernelIdeal.Frame
import proofs.«101608_j9878424781268_1_alg».proof.Proof.Gen.ReferenceIdeal
import proofs.«101608_j9878424781268_1_alg».proof.Proof.Gen.Pre_finite_inputs
import proofs.«101608_j9878424781268_1_alg».proof.Proof.Gen.ReferenceIdeal.Run
import proofs.«101608_j9878424781268_1_alg».proof.Proof.Gen.ReferenceIdeal.Read
import proofs.«101608_j9878424781268_1_alg».proof.Proof.KRun
import proofs.«101608_j9878424781268_1_alg».proof.Proof.KChainB
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's composed term of the arguments, which agree. -/
theorem algebraic : Cert.algebraic_KernelIdeal_ReferenceIdeal := by
  intro m ρ m' ρ' _ hagree
  refine ⟨fun c => Cert.KernelIdeal.Gen.W11 m ρ c (Proc.devRef .tc Cert.KernelIdeal.main_v113),
    Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v180_eq, h0, h1, h2, h3, h4, h5, h6, h7, h8, h9, h10, h11, h12, h13, h14, h15, h16]
  exact (Cert.KernelIdeal.Chain.s113 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
